-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x3x128x128 : Shape := ⟨4, ![1024, 3, 128, 128]⟩
abbrev S1024x128 : Shape := ⟨2, ![1024, 128]⟩
abbrev S_ : Shape := ⟨0, ![]⟩

class Facts : Prop where
  bcast_S_S1024x3x128x128 : S_.BroadcastsInDim S1024x3x128x128 (![] : Fin 0 → Fin S1024x3x128x128.rank)
  reducesTo_S1024x3x128x128_S_d0_1_2_3 : S1024x3x128x128.ReducesTo [0, 1, 2, 3] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part2 {F : FTy → Type} [FloatOps F] (main_arg7 : FVec F S1024x128 .f32) (main_arg8 : FVec F S1024x128 .f32) (main_arg9 : FVec F S1024x128 .f32) (main_v33 : IVec S_ 1) : IVec S_ 1 :=
  let main_v34 : FVec F S1024x128 .f32 := Host.absf main_arg7
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S1024x128 .f32 := Host.absf main_arg8
  let main_cst_14 : FVec F S_ .f32 := constant S_ .f32 0x7F800000#32
  let main_v40 : FVec F S1024x128 .f32 := broadcastInDim S1024x128 ![] bcast_S_S1024x128 main_cst_14
  let main_v41 : IVec S1024x128 1 := cmpf .olt main_v39 main_v40
  let main_c_15 : IVec S_ 1 := constantI S_ 1 1#1
  let main_v42 : IVec S_ 1 := (fun x v => Host.reduce IntOp.andi x v reducesTo_S1024x128_S_d0_1 h_S_) main_v41 main_c_15
  let main_v43 : IVec S_ 1 := andi main_v38 main_v42
  let main_v44 : FVec F S1024x128 .f32 := Host.absf main_arg9
  let main_cst_16 : FVec F S_ .f32 := constant S_ .f32 0x7F800000#32
  let main_v45 : FVec F S1024x128 .f32 := broadcastInDim S1024x128 ![] bcast_S_S1024x128 main_cst_16
  let main_v46 : IVec S1024x128 1 := cmpf .olt main_v44 main_v45
  let main_c_17 : IVec S_ 1 := constantI S_ 1 1#1
  let main_v47 : IVec S_ 1 := (fun x v => Host.reduce IntOp.andi x v reducesTo_S1024x128_S_d0_1 h_S_) main_v46 main_c_17
  let main_v48 : IVec S_ 1 := andi main_v43 main_v47
  main_v48

def fn_part1 {F : FTy → Type} [FloatOps F] (main_arg4 : FVec F S1024x128 .f32) (main_arg5 : FVec F S1024x128 .f32) (main_arg6 : FVec F S1024x128 .f32) (main_arg7 : FVec F S1024x128 .f32) (main_arg8 : FVec F S1024x128 .f32) (main_arg9 : FVec F S1024x128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S1024x128 .f32 := Host.absf main_arg4
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S1024x128 .f32 := Host.absf main_arg6
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x3x128x128 .f32) (main_arg1 : FVec F S1024x3x128x128 .f32) (main_arg2 : FVec F S1024x128 .f32) (main_arg3 : FVec F S1024x128 .f32) (main_arg4 : FVec F S1024x128 .f32) (main_arg5 : FVec F S1024x128 .f32) (main_arg6 : FVec F S1024x128 .f32) (main_arg7 : FVec F S1024x128 .f32) (main_arg8 : FVec F S1024x128 .f32) (main_arg9 : FVec F S1024x128 .f32) : IVec S_ 1 :=
  let main_v0 : FVec F S1024x3x128x128 .f32 := Host.absf main_arg0
  let main_cst : FVec F S_ .f32 := constant S_ .f32 0x7F800000#32
  let main_v1 : FVec F S1024x3x128x128 .f32 := broadcastInDim S1024x3x128x128 ![] bcast_S_S1024x3x128x128 main_cst
  let main_v2 : IVec S1024x3x128x128 1 := cmpf .olt main_v0 main_v1
  let main_c : IVec S_ 1 := constantI S_ 1 1#1
  let main_v3 : IVec S_ 1 := (fun x v => Host.reduce IntOp.andi x v reducesTo_S1024x3x128x128_S_d0_1_2_3 h_S_) main_v2 main_c
  let main_v4 : FVec F S1024x3x128x128 .f32 := Host.absf main_arg1
  let main_cst_0 : FVec F S_ .f32 := constant S_ .f32 0x7F800000#32
  let main_v5 : FVec F S1024x3x128x128 .f32 := broadcastInDim S1024x3x128x128 ![] bcast_S_S1024x3x128x128 main_cst_0
  let main_v6 : IVec S1024x3x128x128 1 := cmpf .olt main_v4 main_v5
  let main_c_1 : IVec S_ 1 := constantI S_ 1 1#1
  let main_v7 : IVec S_ 1 := (fun x v => Host.reduce IntOp.andi x v reducesTo_S1024x3x128x128_S_d0_1_2_3 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_arg7 main_arg8 main_arg9 main_v13 main_v16
-- ==== Kernel.lean ====
abbrev S1024x3x128x128 : Shape := ⟨4, ![1024, 3, 128, 128]⟩
abbrev S1024x128 : Shape := ⟨2, ![1024, 128]⟩
abbrev S393216x128 : Shape := ⟨2, ![393216, 128]⟩
abbrev S16x128 : Shape := ⟨2, ![16, 128]⟩
abbrev S8192x128 : Shape := ⟨2, ![8192, 128]⟩
abbrev S8x128 : Shape := ⟨2, ![8, 128]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S_ : Shape := ⟨0, ![]⟩
abbrev S1024 : Shape := ⟨1, ![1024]⟩
abbrev S1024x1 : Shape := ⟨2, ![1024, 1]⟩

abbrev nBuf : Space → Nat
  | .hbm => 38
  | .vmem => 16
  | .smem => 0
  | _ => 0

abbrev bufTy : (tb : Table) → Fin (tcTables nBuf tb) → BufTy
  | .hbm, ⟨0, _⟩ => ⟨S1024x3x128x128, .f32⟩
  | .hbm, ⟨1, _⟩ => ⟨S1024x3x128x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S393216x128, .f32⟩
  | .hbm, ⟨11, _⟩ => ⟨S393216x128, .f32⟩
  | .hbm, ⟨12, _⟩ => ⟨S16x128, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x1, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8x128, .f32⟩
  | .local _ .vmem, ⟨5, _⟩ => ⟨S8x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x1, .f32⟩
  | .local _ .vmem, ⟨15, _⟩ => ⟨S1x1, .f32⟩
  | _, _ => ⟨S1024x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  shapeCasts_S1024x3x128x128_S393216x128 : S1024x3x128x128.ShapeCasts S393216x128
  inb_S8x128_S8x128_0_0 : ∀ a, (![0, 0] : Fin 2 → Nat) a + S8x128.size a ≤ S8x128.size a
  h_S8x128 : 0 < S8x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  reduces_S1024x1_S1 : S1024x1.Reduces [0] S1
  inb_S1x1_S1x1_0_0 : ∀ a, (![0, 0] : Fin 2 → Nat) a + S1x1.size a ≤ S1x1.size a
  h_S1x1 : 0 < S1x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S393216x128.size a
  hwx0_0 : ∀ i : grid0.Coords, EltTy.bits .f32 = 32 ∨ (Rect.block (s := S393216x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S393216x128.size a
  hwx0_1 : ∀ i : grid0.Coords, EltTy.bits .f32 = 32 ∨ (Rect.block (s := S393216x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .f32 = 32 ∨ (Rect.block (s := S1024x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S1024x128.size a
  hwx1_3 : ∀ i : grid1.Coords, EltTy.bits .f32 = 32 ∨ (Rect.block (s := S1024x128) S1024x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S1024x128.size a
  hwx1_4 : ∀ i : grid1.Coords, EltTy.bits .f32 = 32 ∨ (Rect.block (s := S1024x128) S1024x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S1024x128.size a
  hwx1_5 : ∀ i : grid1.Coords, EltTy.bits .f32 = 32 ∨ (Rect.block (s := S1024x128) S1024x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S1024x128.size a
  hwx1_6 : ∀ i : grid1.Coords, EltTy.bits .f32 = 32 ∨ (Rect.block (s := S1024x128) S1024x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S1024x128.size a
  hwx1_7 : ∀ i : grid1.Coords, EltTy.bits .f32 = 32 ∨ (Rect.block (s := S1024x128) S1024x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1024x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1024x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S1024x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S1024x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1024x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10_0) S1x1.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v10_1) S1x1.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S1024x3x128x128 : Shape := ⟨4, ![1024, 3, 128, 128]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S1024x2 : Shape := ⟨2, ![1024, 2]⟩

abbrev nBuf : Space → Nat
  | .hbm => 159
  | .vmem => 0
  | .smem => 0
  | _ => 0

abbrev hbmTy0_0 (i : Nat) : BufTy := match i % 128 with
  | 0 => ⟨S1024x3x128x128, .f32⟩
  | 1 => ⟨S1024x3x128x128, .f32⟩
  | 2 => ⟨S1024x128, .f32⟩
  | 3 => ⟨S1024x128, .f32⟩
  | 4 => ⟨S1024x128, .f32⟩
  | 5 => ⟨S1024x128, .f32⟩
  | 6 => ⟨S1024x128, .f32⟩
  | 7 => ⟨S1024x128, .f32⟩
  | 8 => ⟨S1024x128, .f32⟩
  | 9 => ⟨S1024x128, .f32⟩
  | 10 => ⟨S1024x128, .f32⟩
  | 11 => ⟨S1024x128, .f32⟩
  | 12 => ⟨S1024x128, .f32⟩
  | 13 => ⟨S_, .f32⟩
  | 14 => ⟨S1024x128, .f32⟩
  | 15 => ⟨S1024x128, .f32⟩
  | 16 => ⟨S1024x128, .f32⟩
  | 17 => ⟨S_, .f32⟩
  | 18 => ⟨S1024x128, .f32⟩
  | 19 => ⟨S1024x128, .f32⟩
  | 20 => ⟨S1024x128, .f32⟩
  | 21 => ⟨S1024x128, .f32⟩
  | 22 => ⟨S_, .f32⟩
  | 23 => ⟨S1024x128, .f32⟩
  | 24 => ⟨S1024x128, .f32⟩
  | 25 => ⟨S1024x128, .f32⟩
  | 26 => ⟨S1024x128, .f32⟩
  | 27 => ⟨S1024x128, .f32⟩
  | 28 => ⟨S1024x128, .f32⟩
  | 29 => ⟨S1024x128, .f32⟩
  | 30 => ⟨S1024x128, .f32⟩
  | 31 => ⟨S_, .f32⟩
  | 32 => ⟨S1024, .f32⟩
  | 33 => ⟨S_, .f32⟩
  | 34 => ⟨S1024, .f32⟩
  | 35 => ⟨S1024, .f32⟩
  | 36 => ⟨S1024x128, .f32⟩
  | 37 => ⟨S_, .f32⟩
  | 38 => ⟨S1024x128, .f32⟩
  | 39 => ⟨S1024x128, .f32⟩
  | 40 => ⟨S1024x128, .f32⟩
  | 41 => ⟨S1024x128, .f32⟩
  | 42 => ⟨S1024x128, .f32⟩
  | 43 => ⟨S1024x128, .f32⟩
  | 44 => ⟨S1024x128, .f32⟩
  | 45 => ⟨S1024x128, .f32⟩
  | 46 => ⟨S_, .f32⟩
  | 47 => ⟨S1024, .f32⟩
  | 48 => ⟨S_, .f32⟩
  | 49 => ⟨S1024, .f32⟩
  | 50 => ⟨S1024, .f32⟩
  | 51 => ⟨S1024, .f32⟩
  | 52 => ⟨S_, .f32⟩
  | 53 => ⟨S1024, .f32⟩
  | 54 => ⟨S1024, .f32⟩
  | 55 => ⟨S1024, .f32⟩
  | 56 => ⟨S1024x128, .f32⟩
  | 57 => ⟨S1024x128, .f32⟩
  | 58 => ⟨S1024x128, .f32⟩
  | 59 => ⟨S_, .f32⟩
  | 60 => ⟨S1024x128, .f32⟩
  | 61 => ⟨S1024x128, .f32⟩
  | 62 => ⟨S1024x128, .f32⟩
  | 63 => ⟨S_, .f32⟩
  | 64 => ⟨S1024x128, .f32⟩
  | 65 => ⟨S1024x128, .f32⟩
  | 66 => ⟨S1024x128, .f32⟩
  | 67 => ⟨S1024x128, .f32⟩
  | 68 => ⟨S_, .f32⟩
  | 69 => ⟨S1024x128, .f32⟩
  | 70 => ⟨S1024x128, .f32⟩
  | 71 => ⟨S1024x128, .f32⟩
  | 72 => ⟨S1024x128, .f32⟩
  | 73 => ⟨S1024x128, .f32⟩
  | 74 => ⟨S1024x128, .f32⟩
  | 75 => ⟨S1024x128, .f32⟩
  | 76 => ⟨S1024x128, .f32⟩
  | 77 => ⟨S_, .f32⟩
  | 78 => ⟨S1024, .f32⟩
  | 79 => ⟨S_, .f32⟩
  | 80 => ⟨S1024, .f32⟩
  | 81 => ⟨S1024, .f32⟩
  | 82 => ⟨S1024x128, .f32⟩
  | 83 => ⟨S_, .f32⟩
  | 84 => ⟨S1024x128, .f32⟩
  | 85 => ⟨S1024x128, .f32⟩
  | 86 => ⟨S1024x128, .f32⟩
  | 87 => ⟨S1024x128, .f32⟩
  | 88 => ⟨S1024x128, .f32⟩
  | 89 => ⟨S1024x128, .f32⟩
  | 90 => ⟨S1024x128, .f32⟩
  | 91 => ⟨S1024x128, .f32⟩
  | 92 => ⟨S_, .f32⟩
  | 93 => ⟨S1024, .f32⟩
  | 94 => ⟨S_, .f32⟩
  | 95 => ⟨S1024, .f32⟩
  | 96 => ⟨S1024, .f32⟩
  | 97 => ⟨S1024, .f32⟩
  | 98 => ⟨S_, .f32⟩
  | 99 => ⟨S1024, .f32⟩
  | 100 => ⟨S1024, .f32⟩
  | 101 => ⟨S1024, .f32⟩
  | 102 => ⟨S1024x1, .f32⟩
  | 103 => ⟨S1024x1, .f32⟩
  | 104 => ⟨S1024x2, .f32⟩
  | 105 => ⟨S_, .f32⟩
  | 106 => ⟨S1024, .f32⟩
  | 107 => ⟨S_, .f32⟩
  | 108 => ⟨S1024, .f32⟩
  | 109 => ⟨S1024, .f32⟩
  | 110 => ⟨S1024x1, .f32⟩
  | 111 => ⟨S1024x2, .f32⟩
  | 112 => ⟨S1024x2, .f32⟩
  | 113 => ⟨S1024x2, .f32⟩
  | 114 => ⟨S_, .f32⟩
  | 115 => ⟨S1024, .f32⟩
  | 116 => ⟨S1024x1, .f32⟩
  | 117 => ⟨S1024x2, .f32⟩
  | 118 => ⟨S1024x2, .f32⟩
  | 119 => ⟨S1024x1, .f32⟩
  | 120 => ⟨S1024, .f32⟩
  | 121 => ⟨S_, .f32⟩
  | 122 => ⟨S_, .f32⟩
  | 123 => ⟨S_, .f32⟩
  | 124 => ⟨S_, .f32⟩
  | 125 => ⟨S_, .f32⟩
  | 126 => ⟨S1024x3x128x128, .f32⟩
  | 127 => ⟨S1024x3x128x128, .f32⟩
  | _ => ⟨S1024x3x128x128, .f32⟩

abbrev hbmTy0_1 (i : Nat) : BufTy := match i % 128 with
  | 0 => ⟨S_, .f32⟩
  | 1 => ⟨S1024x3x128x128, .f32⟩
  | 2 => ⟨S1024x3x128x128, .f32⟩
  | 3 => ⟨S1024x3x128x128, .f32⟩
  | 4 => ⟨S1024x3x128x128, .f32⟩
  | 5 => ⟨S1024x3x128x128, .f32⟩
  | 6 => ⟨S1024x3x128x128, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S1024x128, .f32⟩
  | 14 => ⟨S1024x128, .f32⟩
  | 15 => ⟨S1024x128, .f32⟩
  | 16 => ⟨S1024x128, .f32⟩
  | 17 => ⟨S1024x128, .f32⟩
  | 18 => ⟨S1024x128, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | _ => ⟨S1024x3x128x128, .f32⟩

abbrev hbmTy (i : Nat) : BufTy := match i / 128 with
  | 0 => hbmTy0_0 i
  | 1 => hbmTy0_1 i
  | _ => ⟨S1024x3x128x128, .f32⟩

abbrev bufTy : (tb : Table) → Fin (tcTables nBuf tb) → BufTy
  | .hbm, ⟨i, _⟩ => hbmTy i
  | _, _ => ⟨S1024x3x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_cst_18 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_19 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_20 : Ref sig .tc := ⟨.hbm, 121, rfl⟩
abbrev main_v90 : Ref sig .tc := ⟨.hbm, 122, rfl⟩
abbrev main_cst_21 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_22 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_23 : Ref sig .tc := ⟨.hbm, 135, rfl⟩
abbrev main_v101 : Ref sig .tc := ⟨.hbm, 136, rfl⟩
abbrev main_cst_24 : Ref sig .tc := ⟨.hbm, 137, rfl⟩
abbrev main_v102 : Ref sig .tc := ⟨.hbm, 138, rfl⟩
abbrev main_v103 : Ref sig .tc := ⟨.hbm, 139, rfl⟩
abbrev main_cst_25 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_26 : Ref sig .tc := ⟨.hbm, 147, rfl⟩
abbrev main_v110 : Ref sig .tc := ⟨.hbm, 148, rfl⟩
abbrev main_cst_27 : Ref sig .tc := ⟨.hbm, 149, rfl⟩
abbrev main_v111 : Ref sig .tc := ⟨.hbm, 150, rfl⟩
abbrev main_cst_28 : Ref sig .tc := ⟨.hbm, 151, rfl⟩
abbrev main_v112 : Ref sig .tc := ⟨.hbm, 152, rfl⟩
abbrev main_cst_29 : Ref sig .tc := ⟨.hbm, 153, rfl⟩
abbrev main_v113 : Ref sig .tc := ⟨.hbm, 154, rfl⟩
abbrev main_v114 : Ref sig .tc := ⟨.hbm, 155, rfl⟩
abbrev main_cst_30 : Ref sig .tc := ⟨.hbm, 156, rfl⟩
abbrev main_v115 : Ref sig .tc := ⟨.hbm, 157, rfl⟩
abbrev main_v116 : Ref sig .tc := ⟨.hbm, 158, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  reducesTo_S1024x128_S1024_d1 : S1024x128.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  reducesTo_S1024x2_S1024_d1 : S1024x2.ReducesTo [1] S1024
  bcast_S1024x1_S1024x2_0_1 : S1024x1.BroadcastsInDim S1024x2 (![0, 1] : Fin 2 → Fin S1024x2.rank)
  slices_S1024x2_S1024x1_0_0 : S1024x2.Slices ![0, 0] S1024x1
  shapeCasts_S1024x1_S1024 : S1024x1.ShapeCasts S1024
  reducesTo_S1024_S_d0 : S1024.ReducesTo [0] S_
  bcast_S_S1024x3x128x128 : S_.BroadcastsInDim S1024x3x128x128 (![] : Fin 0 → Fin S1024x3x128x128.rank)
  reducesTo_S1024x3x128x128_S_d0_1_2_3 : S1024x3x128x128.ReducesTo [0, 1, 2, 3] S_
  reducesTo_S1024x128_S_d0_1 : S1024x128.ReducesTo [0, 1] S_

variable [Facts₀]

class Facts : Prop extends Facts₀ where

variable [Facts]
-- ==== Proof.KernelRun.lean ====
/-
  The idealized kernel's run, with its four results named.

  The program is two kernel regions among three stretches of host operations. Its frame proof follows the
  buffer contents from the launch memory through the five segments: `W1` after the two reshapes, `W2` after the
  first region (its output array at what the write-backs leave), `W3` after the host lines that pick the two
  partial sums and form the reconstruction loss, `W4` after the second region, `W5` after the closing host lines.
  Every unscoped buffer ends at `W5`; the frame keeps of this only that the arguments are unchanged. Here the same
  run is stated with the four result buffers too, each at its `W5` contents, so that a value proof can read them.
-/
import proofs.«145820_j27006754357707_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the total loss, the triplet
    loss, the reconstruction loss and the KL loss at the last boundary's contents, and the arguments as launched. -/
theorem run_values : θ_run defs (onTc (τ := τ) (main (F := F))) ⟨m, fun _ => 0, ρ⟩ (fun r => ∀ c : Dev nD,
      r.2.mem ((c.tc : Thread nD τ).loc main_v20) = W5 m ρ c (Proc.devRef .tc main_v20)
      ∧ r.2.mem ((c.tc : Thread nD τ).loc main_v16) = W5 m ρ c (Proc.devRef .tc main_v16)
      ∧ r.2.mem ((c.tc : Thread nD τ).loc main_v9) = W5 m ρ c (Proc.devRef .tc main_v9)
      ∧ r.2.mem ((c.tc : Thread nD τ).loc main_v13) = W5 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v20 (by decide)),
       h c _ (mem_uc main_v16 (by decide)),
       h c _ (mem_uc main_v9 (by decide)),
       h c _ (mem_uc main_v13 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.RunValues

end
-- ==== Proof.HostTail.lean ====
/-
  The host lines around the two kernel regions, read.

  The program's last stretch of host lines forms the four results from three numbers: the reconstruction loss
  (already computed by the middle stretch from the first region's 16×128 output: minus the sum of its entries (0, 0)
  and (8, 0), divided by the number of pixels) and the second region's two 1×1 outputs (the KL sum, divided by the
  number of latent entries and scaled by −½; the sum of the triplet probabilities, divided by the number of rows and
  negated); the total is their sum with unit weights. The first stretch only reshapes the two image arrays to
  393216 × 128. Each result buffer's contents at the last boundary is written here as that expression of the two
  regions' output arrays, and each input array a region reads as the launch memory's array.
-/
import proofs.«145820_j27006754357707_2_alg».proof.Proof.KernelRun
import Idealize.ShloMosaic.Lib.StableHlo.Run

set_option maxRecDepth 16384

noncomputable section

namespace Cert.KernelIdeal.HostTail

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The first region's output array after its write-backs. -/
abbrev bceArr (c : Dev nD) : (⟨S16x128, .f32⟩ : BufTy).Contents (Elt F) := (dat0 (V1 m ρ) c).arrAt 2 cfg0.N
/-- The second region's two output arrays after its write-back. -/
abbrev klArr (c : Dev nD) : (⟨S1x1, .f32⟩ : BufTy).Contents (Elt F) := (dat1 (V3 m ρ) c).arrAt 8 cfg1.N
abbrev probArr (c : Dev nD) : (⟨S1x1, .f32⟩ : BufTy).Contents (Elt F) := (dat1 (V3 m ρ) c).arrAt 9 cfg1.N

/-- The reconstruction loss as the middle stretch forms it from the first region's output. -/
def reconOf (A : (⟨S16x128, .f32⟩ : BufTy).Contents (Elt F)) : (⟨S_, .f32⟩ : BufTy).Contents (Elt F) :=
  Host.divf (Host.negf (addf (shapeCast S_ (extractStridedSlice S1x1 ![0, 0] A slices_S16x128_S1x1_0_0) shapeCasts_S1x1_S_)
    (shapeCast S_ (extractStridedSlice S1x1 ![8, 0] A slices_S16x128_S1x1_8_0) shapeCasts_S1x1_S_)))
    (constant S_ .f32 0x4C400000#32)
/-- The KL loss and the triplet loss as the last stretch forms them from the second region's outputs. -/
def klOf (K : (⟨S1x1, .f32⟩ : BufTy).Contents (Elt F)) : (⟨S_, .f32⟩ : BufTy).Contents (Elt F) :=
  mulf (constant S_ .f32 0xBF000000#32) (Host.divf (shapeCast S_ K shapeCasts_S1x1_S_) (constant S_ .f32 0x48000000#32))
def tripOf (P : (⟨S1x1, .f32⟩ : BufTy).Contents (Elt F)) : (⟨S_, .f32⟩ : BufTy).Contents (Elt F) :=
  Host.negf (Host.divf (shapeCast S_ P shapeCasts_S1x1_S_) (constant S_ .f32 0x44800000#32))
/-- The total: the three losses with unit weights. -/
def totalOf (r k p : (⟨S_, .f32⟩ : BufTy).Contents (Elt F)) : (⟨S_, .f32⟩ : BufTy).Contents (Elt F) :=
  addf (addf r (mulf (constant S_ .f32 0x3F800000#32) k)) (mulf (constant S_ .f32 0x3F800000#32) p)

/-- The reconstruction loss's buffer after the middle stretch. -/
theorem W3_v9 (c : Dev nD) : W3 m ρ c (Proc.devRef .tc main_v9) = reconOf (W2 m ρ c (Proc.devRef .tc main_v2)) := by
  show StableHlo.after hostOps1 (W2 m ρ c) (Proc.devRef .tc main_v9) = _
  after_results
  rfl

theorem W5_v13 (c : Dev nD) : W5 m ρ c (Proc.devRef .tc main_v13) = klOf (W4 m ρ c (Proc.devRef .tc main_v10_0)) := by
  show StableHlo.after hostOps2 (W4 m ρ c) (Proc.devRef .tc main_v13) = _
  after_results
  rfl

theorem W5_v16 (c : Dev nD) : W5 m ρ c (Proc.devRef .tc main_v16) = tripOf (W4 m ρ c (Proc.devRef .tc main_v10_1)) := by
  show StableHlo.after hostOps2 (W4 m ρ c) (Proc.devRef .tc main_v16) = _
  after_results
  rfl

theorem W5_v9 (c : Dev nD) : W5 m ρ c (Proc.devRef .tc main_v9) = W4 m ρ c (Proc.devRef .tc main_v9) := by
  show StableHlo.after hostOps2 (W4 m ρ c) (Proc.devRef .tc main_v9) = _
  after_results

theorem W5_v20 (c : Dev nD) : W5 m ρ c (Proc.devRef .tc main_v20)
    = totalOf (W4 m ρ c (Proc.devRef .tc main_v9)) (klOf (W4 m ρ c (Proc.devRef .tc main_v10_0)))
        (tripOf (W4 m ρ c (Proc.devRef .tc main_v10_1))) := by
  show StableHlo.after hostOps2 (W4 m ρ c) (Proc.devRef .tc main_v20) = _
  after_results
  rfl

/-- The reshaped image arrays the first region reads. -/
theorem W1_v0 (c : Dev nD) : W1 m ρ c (Proc.devRef .tc main_v0)
    = shapeCast S393216x128 (m ((c.tc : Thread nD τ).loc main_arg0)) shapeCasts_S1024x3x128x128_S393216x128 := by
  show StableHlo.after hostOps0 (W0 m ρ c) (Proc.devRef .tc main_v0) = _
  after_results
  rfl
theorem W1_v1 (c : Dev nD) : W1 m ρ c (Proc.devRef .tc main_v1)
    = shapeCast S393216x128 (m ((c.tc : Thread nD τ).loc main_arg1)) shapeCasts_S1024x3x128x128_S393216x128 := by
  show StableHlo.after hostOps0 (W0 m ρ c) (Proc.devRef .tc main_v1) = _
  after_results
  rfl

/-- The eight latent arrays the second region reads are the launch memory's: no host line and no region before it
    writes them. -/
theorem W3_arg2 (c : Dev nD) : W3 m ρ c (Proc.devRef .tc main_arg2) = m ((c.tc : Thread nD τ).loc main_arg2) := by
  show StableHlo.after hostOps1 (W2 m ρ c) (Proc.devRef .tc main_arg2) = _
  after_results
  rw [W2_of_ne m ρ c main_arg2 (by decide)]
  show StableHlo.after hostOps0 (W0 m ρ c) (Proc.devRef .tc main_arg2) = _
  after_results
theorem W3_arg3 (c : Dev nD) : W3 m ρ c (Proc.devRef .tc main_arg3) = m ((c.tc : Thread nD τ).loc main_arg3) := by
  show StableHlo.after hostOps1 (W2 m ρ c) (Proc.devRef .tc main_arg3) = _
  after_results
  rw [W2_of_ne m ρ c main_arg3 (by decide)]
  show StableHlo.after hostOps0 (W0 m ρ c) (Proc.devRef .tc main_arg3) = _
  after_results
theorem W3_arg4 (c : Dev nD) : W3 m ρ c (Proc.devRef .tc main_arg4) = m ((c.tc : Thread nD τ).loc main_arg4) := by
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results
theorem W3_arg5 (c : Dev nD) : W3 m ρ c (Proc.devRef .tc main_arg5) = m ((c.tc : Thread nD τ).loc main_arg5) := by
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results
theorem W3_arg6 (c : Dev nD) : W3 m ρ c (Proc.devRef .tc main_arg6) = m ((c.tc : Thread nD τ).loc main_arg6) := by
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results
theorem W3_arg7 (c : Dev nD) : W3 m ρ c (Proc.devRef .tc main_arg7) = m ((c.tc : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results
theorem W3_arg8 (c : Dev nD) : W3 m ρ c (Proc.devRef .tc main_arg8) = m ((c.tc : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results
theorem W3_arg9 (c : Dev nD) : W3 m ρ c (Proc.devRef .tc main_arg9) = m ((c.tc : Thread nD τ).loc main_arg9) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results

/-- The four results at the last boundary, from the regions' output arrays. -/
theorem res_recon (c : Dev nD) : W5 m ρ c (Proc.devRef .tc main_v9) = reconOf (bceArr m ρ c) := by
  rw [W5_v9, W4_of_ne m ρ c main_v9 (by decide), W3_v9]
  exact congrArg reconOf (W2_arr m ρ c 2)
theorem res_kl (c : Dev nD) : W5 m ρ c (Proc.devRef .tc main_v13) = klOf (klArr m ρ c) := by
  rw [W5_v13]
  exact congrArg klOf (W4_arr m ρ c 8)
theorem res_trip (c : Dev nD) : W5 m ρ c (Proc.devRef .tc main_v16) = tripOf (probArr m ρ c) := by
  rw [W5_v16]
  exact congrArg tripOf (W4_arr m ρ c 9)
theorem res_total (c : Dev nD) : W5 m ρ c (Proc.devRef .tc main_v20)
    = totalOf (reconOf (bceArr m ρ c)) (klOf (klArr m ρ c)) (tripOf (probArr m ρ c)) := by
  rw [W5_v20, ← W5_v9, res_recon]
  exact congrArg₂ (totalOf _) (congrArg klOf (W4_arr m ρ c 8)) (congrArg tripOf (W4_arr m ρ c 9))

end Cert.KernelIdeal.HostTail

end
-- ==== Proof.Spec.lean ====
/-
  The four losses as formulas on the extended reals.

  Every float is read as an extended real and every operation is the exact one. This module fixes, once, the
  entrywise terms of the three losses and the two ways a two-class probability is written, so that the
  two programs' results can be stated against the same names:

  * `bce x y` — one pixel's log-likelihood  x · log y + (1 − x) · log(1 + (−y));
  * `kl μ ℓ` — one latent coordinate's term  1 + ℓ − μ² − e^ℓ  of the Gaussian KL against the standard normal;
  * `klDiag μ ℓ μa ℓa μb ℓb` — one coordinate's term of the KL of N(μ, e^ℓ) against the mixture Gaussian whose
    variance is ¼(e^ℓa + e^ℓb) and whose mean is ½(μa + μb);
  * `negJs` — minus the Jensen–Shannon divergence of two rows: −½(½ Σ klDiag(a …) + ½ Σ klDiag(b …));
  * `sigmoidDiff a b` = 1 / (1 + e^{−(a − b)}) and `softmaxFirst a b` = e^{a − M} / (e^{a − M} + e^{b − M}) with
    M = max a b: the first of two softmax weights, written both ways.
-/
import Idealize.ShloMosaic.PureOps.Ideal
import Idealize.ShloMosaic.Lib.ValueIdx

noncomputable section

open scoped BigOperators

namespace Cert.Spec

open Idealize.ShloMosaic Idealize.ShloMosaic.ValueIdx

/-- The f32 words of the constants both programs use, as extended reals. -/
abbrev kOne : EReal := Ideal.ofBits .f32 0x3F800000#32
abbrev kHalf : EReal := Ideal.ofBits .f32 0x3F000000#32
abbrev kQuarter : EReal := Ideal.ofBits .f32 0x3E800000#32
abbrev kNegHalf : EReal := Ideal.ofBits .f32 0xBF000000#32
/-- The number of pixels 1024·3·128·128, of latent entries 1024·128, and of rows 1024, as f32 words. -/
abbrev nPix : EReal := Ideal.ofBits .f32 0x4C400000#32
abbrev nLat : EReal := Ideal.ofBits .f32 0x48000000#32
abbrev nRow : EReal := Ideal.ofBits .f32 0x44800000#32

/-- One pixel's log-likelihood term. -/
def bce (x y : EReal) : EReal := x * Ideal.log y + (kOne - x) * Ideal.log1p (-y)

/-- One latent coordinate's term of the KL against the standard normal. -/
def kl (mu lv : EReal) : EReal := kOne + lv - mu * mu - Ideal.exp lv

/-- The mixture's variance and mean at one coordinate. -/
def varM (la lb : EReal) : EReal := kQuarter * (Ideal.exp la + Ideal.exp lb)
def meanM (ma mb : EReal) : EReal := kHalf * (ma + mb)

/-- One coordinate's term of KL(N(mu, e^lv) ‖ mixture of (ma, la) and (mb, lb)). -/
def klDiag (mu lv ma la mb lb : EReal) : EReal :=
  Ideal.log (varM la lb) - lv - kOne + Ideal.div (Ideal.exp lv) (varM la lb)
    + Ideal.div ((meanM ma mb - mu) * (meanM ma mb - mu)) (varM la lb)

/-- Minus the Jensen–Shannon divergence of the Gaussians of two rows of 128 coordinates. -/
def negJs (ma la mb lb : Fin 128 → EReal) : EReal :=
  -(kHalf * (kHalf * ∑ l, klDiag (ma l) (la l) (ma l) (la l) (mb l) (lb l)
      + kHalf * ∑ l, klDiag (mb l) (lb l) (ma l) (la l) (mb l) (lb l)))

/-- The first of two softmax weights as a sigmoid of the difference. -/
def sigmoidDiff (a b : EReal) : EReal := Ideal.div kOne (kOne + Ideal.exp (-(a - b)))

/-- The first of two softmax weights with the maximum subtracted. -/
def softmaxFirst (a b : EReal) : EReal :=
  Ideal.div (Ideal.exp (a - max a b)) (Ideal.exp (a - max a b) + Ideal.exp (b - max a b))

/-- Row `r` of a 1024 × 128 array. -/
def row (x : (⟨2, ![1024, 128]⟩ : Shape).Idx → EReal) (r : Fin 1024) : Fin 128 → EReal := fun l => x (ix2 r l)

/-- The anchor–positive and anchor–negative scores of row `r`. -/
def dAP (am al pm pl : (⟨2, ![1024, 128]⟩ : Shape).Idx → EReal) (r : Fin 1024) : EReal :=
  negJs (row am r) (row al r) (row pm r) (row pl r)

end Cert.Spec

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibColumnSum.lean ====
/-
  A sum down a one-lane column, read at an index of literal coordinates.

  A kernel that totals an `a × b` array one axis at a time first sums the lanes of each row, keeps the row sums as an
  `a × 1` column, and then sums the column's `a` entries into a single entry. Read at the extended reals:

  * `lift_cols`: over the one kept index, the source index whose row coordinate is `k` is `(k, 0)`;
  * `multiReduction_add_cols`: the sum down the column `x : [a, 1]` is `∑ k, x (k, 0)`.
-/
import Idealize.ShloMosaic.PureOps.Ideal
import Idealize.ShloMosaic.PureOps.Ideal.Laws
import Idealize.ShloMosaic.Lib.ValueIdx

noncomputable section

open scoped BigOperators

namespace Cert.Proof.ColumnSum

open Idealize.ShloMosaic Idealize.ShloMosaic.ValueIdx

/-- Over the one kept index, the source index whose row coordinate is `k` is `(k, 0)`. -/
theorem lift_cols {a : ℕ} (h : (⟨2, ![a, 1]⟩ : Shape).Reduces [(0 : Fin 2)] ⟨1, ![1]⟩) (u : Fin 1) (k : Fin a) :
    h.lift (ix1 u) k = ix2 k (0 : Fin 1) := by
  funext c
  refine Fin.ext ?_
  match c with
  | ⟨0, _⟩ => rfl
  | ⟨1, _⟩ =>
    show u.val = 0
    omega

/-- A float sum down an `a × 1` column, at the extended reals, is `∑ k, x (k, 0)`. The accumulator fact is taken in the
    form a printed program carries it. -/
theorem multiReduction_add_cols {a : ℕ} {φ : FTy} (x : FVec Ideal ⟨2, ![a, 1]⟩ φ) (acc : BitVec φ.bits)
    (h : (⟨2, ![a, 1]⟩ : Shape).Reduces [(0 : Fin 2)] ⟨1, ![1]⟩) (hφ : FKind.Formats φ)
    (hacc : acc = FKind.add.neutral φ hφ) (u : Fin 1) :
    multiReduction .add [(0 : Fin 2)] ⟨1, ![1]⟩ x acc h hφ hacc (ix1 u) = ∑ k : Fin a, x (ix2 k (0 : Fin 1)) := by
  refine (Ideal.multiReduction_add_single x acc h hφ hacc (ix1 u)).trans ?_
  exact Finset.sum_congr rfl fun k _ => congrArg x (lift_cols h u k)

end Cert.Proof.ColumnSum

end
-- ==== Proof.Region0Value.lean ====
/-
  The first kernel region's output, read at the two entries the program uses.

  The region sums the log-likelihood terms of 48 blocks of 8192 rows × 128 lanes. Its grid is 2 × 24: the first
  coordinate picks one of two 8×128 output tiles, the second runs over the 24 blocks that tile accumulates. At the
  first block of a run the body clears the tile; at every block it adds the block's total into entry (0, 0) of the
  tile and zero elsewhere. The tile is written back to the 16×128 result after the last block of its run, so the
  result's entries (0, 0) and (8, 0) end at the sums of the totals of blocks 0…23 and 24…47.

  Here: the value each case of the body leaves in the tile, as a function of what the tile held; the block total
  read out of it at entry (0, 0); the running sum by induction on the grid point; and the two entries of the result
  after the write-backs.
-/
import proofs.«145820_j27006754357707_2_alg».proof.Proof.Gen.KernelIdeal.Frame
import proofs.«145820_j27006754357707_2_alg».proof.Proof.Spec
import proofs.«145820_j27006754357707_2_alg».proof.Proof.LibColumns
import proofs.«145820_j27006754357707_2_alg».proof.Proof.LibColumnSum
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open scoped BigOperators

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat)
open Cert.Proof.Columns Cert.Proof.ColumnSum

theorem hz : (![0, 0] : Fin 2 → Nat) = fun _ => 0 := funext fun a => by fin_cases a <;> rfl

section Cases
variable {F : FTy → Type} [FloatOps F]

/-- At a block that is not the first of its run the body leaves in the tile, which held `xo`, its one store's
    value: the sum of `xo` and the masked block total. -/
theorem out_B (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (hc : ¬cond0_0 i) (x0 x1 : Vec F S8192x128 .f32) (xo : Vec F S8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S8192x128) hz,
    View.ld_unit_zero (S := S8x128) hz]

/-- At the first block of a run the body clears the tile and then does the same: it leaves the sum of the zero tile
    and the masked block total. -/
theorem out_A (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (hc : cond0_0 i) (x0 x1 : Vec F S8192x128 .f32) :
    out0_A_2 c i a2 h2 a3 h3 a4 h4 hc x0 x1 = k0_pay2 x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S8192x128) hz]

end Cases

/-! ## The stored value at entry (0, 0) -/

/-- The total of one block: the sum over its 8192 rows and 128 lanes of the log-likelihood term. -/
def blockTotal (x0 x1 : FVec Ideal S8192x128 .f32) : EReal :=
  ∑ r : Fin 8192, ∑ l : Fin 128, bce (x0 (ix2 r l)) (x1 (ix2 r l))

/-- The mask `row = 0 and lane = 0` is one at entry (0, 0). -/
theorem mask00 (h0 : S8x128.Iotas .tc 32 [0]) (h1 : S8x128.Iotas .tc 32 [1]) :
    andi (cmpi .eq (iota .tc S8x128 32 [0] h0) (broadcast S8x128 (0#32 : BitVec 32)))
      (cmpi .eq (iota .tc S8x128 32 [1] h1) (broadcast S8x128 (0#32 : BitVec 32))) (ix2 (0 : Fin 8) (0 : Fin 128)) = 1#1 := by
  show IntOp.andi (IntOp.cmpi .eq (iota .tc S8x128 32 [0] h0 (ix2 (0 : Fin 8) (0 : Fin 128))) 0#32)
    (IntOp.cmpi .eq (iota .tc S8x128 32 [1] h1 (ix2 (0 : Fin 8) (0 : Fin 128))) 0#32) = 1#1
  rw [iota_single_apply, iota_single_apply]
  decide

/-- The value the body stores, at entry (0, 0): what the tile held there plus the block's total. -/
theorem pay2_apply (x0 x1 : FVec Ideal S8192x128 .f32) (xo : FVec Ideal S8x128 .f32) :
    k0_pay2 (F := Ideal) x0 x1 xo (ix2 (0 : Fin 8) (0 : Fin 128)) = xo (ix2 (0 : Fin 8) (0 : Fin 128)) + blockTotal x0 x1 := by
  unfold k0_pay2
  dsimp only
  refine (addf_apply _ _ _).trans ?_
  refine congrArg₂ (fun a b : EReal => a + b) (congrFun (shapeCast_self xo _) _) ?_
  refine (select_apply _ _ _ _).trans ?_
  refine (congrArg (fun b => Scalar.select b _ _) (mask00 _ _)).trans ?_
  refine (select_one _ _).trans ?_
  refine (broadcastTo_apply _ _ _ (ix2 (0 : Fin 1) (0 : Fin 1)) (fun a => by fin_cases a <;> rfl)).trans ?_
  refine (congrFun (shapeCast_self _ _) _).trans ?_
  refine (shapeCast_a_a1_apply _ _ 0 0).trans ?_
  refine (multiReduction_add_cols _ _ _ _ _ 0).trans ?_
  refine Finset.sum_congr rfl fun r _ => ?_
  refine (shapeCast_a_a1_apply _ _ r 0).trans ?_
  refine (multiReduction_add_rows _ _ _ _ _ r).trans ?_
  refine Finset.sum_congr rfl fun l _ => ?_
  rw [shapeCast_self x0, shapeCast_self x1]
  show x0 (ix2 r l) * Ideal.log (x1 (ix2 r l))
      + (Ideal.ofBits .f32 0x3F800000#32 - x0 (ix2 r l)) * Ideal.log1p (Ideal.ofBits .f32 0x00000000#32 - x1 (ix2 r l)) = _
  rw [Ideal.ofBits_zero_f32, zero_sub]
  rfl

/-- The cleared tile is zero at entry (0, 0). -/
theorem pay1_apply : k0_pay1 (F := Ideal) (ix2 (0 : Fin 8) (0 : Fin 128)) = 0 := Ideal.ofBits_zero_f32

/-! ## The running sum -/

section Run
variable (V : (c : Dev nD) → (b : Ref sig .tc) → Buf (Elt Ideal) ((c : Thread nD τ).loc b))

/-- The total of the block the grid's point `n` reads (zero past the grid). -/
def tot (c : Dev nD) (n : ℕ) : EReal :=
  if h : n < cfg0.N then blockTotal (iblk0 V c 0 ⟨n, h⟩) (iblk0 V c 1 ⟨n, h⟩) else 0

theorem tot_of_lt (c : Dev nD) (n : ℕ) (h : n < cfg0.N) :
    tot V c n = blockTotal (iblk0 V c 0 ⟨n, h⟩) (iblk0 V c 1 ⟨n, h⟩) := dif_pos h

/-- After point `n` entry (0, 0) of the tile holds the sum of the totals of the blocks of `n`'s run up to `n`:
    the run starts at the multiple of 24 below `n`. By induction on the point. -/
theorem acc_eq (c : Dev nD) : ∀ (n : ℕ) (h : n < cfg0.N),
    outsAt0 V c n h (ix2 (0 : Fin 8) (0 : Fin 128)) = ∑ s ∈ Finset.range (n % 24 + 1), tot V c (n - n % 24 + s)
  | 0, h => by
    have e := congrFun ((outsAt0_A V c ⟨0, h⟩ rfl).trans (out_A ..)) (ix2 (0 : Fin 8) (0 : Fin 128))
    refine e.trans ((pay2_apply _ _ _).trans ?_)
    rw [pay1_apply, zero_add]
    show _ = ∑ s ∈ Finset.range 1, tot V c (0 + s)
    rw [Finset.sum_range_one, tot_of_lt V c (0 + 0) h]
  | n + 1, h => by
    have ih := acc_eq c n (Nat.lt_of_succ_lt h)
    by_cases h0 : (n + 1) % 24 = 0
    · have e := congrFun ((outsAt0_A V c ⟨n + 1, h⟩ h0).trans (out_A ..)) (ix2 (0 : Fin 8) (0 : Fin 128))
      refine e.trans ((pay2_apply _ _ _).trans ?_)
      rw [pay1_apply, zero_add, h0]
      show _ = ∑ s ∈ Finset.range 1, tot V c (n + 1 - 0 + s)
      rw [Finset.sum_range_one, tot_of_lt V c (n + 1 - 0 + 0) h]
      rfl
    · have e := congrFun ((outsAt0_B V c ⟨n + 1, h⟩ h0).trans (out_B ..)) (ix2 (0 : Fin 8) (0 : Fin 128))
      refine e.trans ((pay2_apply _ _ _).trans ?_)
      have e1 : (n + 1) % 24 = n % 24 + 1 := by omega
      have e2 : n + 1 - (n % 24 + 1) = n - n % 24 := by omega
      have e3 : n - n % 24 + (n % 24 + 1) = n + 1 := by omega
      rw [e1, e2, Finset.sum_range_succ, e3, tot_of_lt V c (n + 1) h]
      exact congrArg (fun a : EReal => a + _) ih

end Run

end Cert.KernelIdeal.Region0

end
-- ==== Proof.Region0Array.lean ====
/-
  The first kernel region's result array after its write-backs, at the two entries the program reads.

  The 16×128 result has two 8×128 tiles. Tile q is written back once, after block 24·q + 23, the last of its
  run; the two write-backs touch disjoint rows, so each tile of the result ends at what its one write-back wrote.
  Entry (8·q, 0) of the result is entry (0, 0) of tile q: the sum of the totals of blocks 24·q … 24·q + 23.
  An input window's block at point t is rows 8192·t … 8192·t + 8191 of its array.
-/
import proofs.«145820_j27006754357707_2_alg».proof.Proof.Region0Value

set_option maxRecDepth 16384

noncomputable section

open scoped BigOperators

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of the three windows at every grid point, decided over the grid: the inputs' is the point's
    number, the output's the number of the point's run. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 24 ∧ win0_2.index t (1 : Fin 2) = 0 :=
  (by decide +kernel : ∀ t : Fin grid0.N, _)

/-- Two points that both write the output back and have the same output block are the same point. -/
theorem flush_inj : ∀ t t' : Fin cfg0.N, (cfg0.win 2).flush t = true → (cfg0.win 2).flush t' = true →
    win0_2.index t = win0_2.index t' → t = t' :=
  (by decide +kernel : ∀ t t' : Fin grid0.N, win0_2.flush t = true → win0_2.flush t' = true →
    win0_2.index t = win0_2.index t' → t = t')

/-- So the two write-backs touch disjoint parts of the result. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (flush_inj t t' hf hf' h)

/-- An entry of the result under a write-back's tile ends at that tile's entry after the write-back's point. -/
theorem arr_block (c : Dev nD) (t : Fin cfg0.N) (hf : t.val % 24 = 23) (y : S8x128.Idx) :
    (dat0 V c).arrAt 2 cfg0.N (((cfg0.win 2).blk t).view.emb y) = outsAt0 V c t.val t.isLt y := by
  refine ((dat0 V c).arrAt_emb_eq_flushed 2 (disjoint2) t ((flush0_2 t).mpr hf) y).trans ?_
  rw [cast_eq]
  show (cfg0.win 2).cut (grid0.coords t) ((dat0 V c).after 2 t) y = _
  rw [after0_2]
  rfl

end Cert.KernelIdeal.Region0

end
-- ==== Proof.LibSumRuns.lean ====
/-
  Sums taken in runs.

  A sum of `a · b` consecutive terms `f 0, f 1, …` is the sum of its `a` runs of `b` terms, run `d` being
  `f (b · d), …, f (b · d + b − 1)` — in any commutative monoid, so also on the extended reals, where it says that a
  contraction accumulated block by block is the whole contraction. Stated over `Finset.range` and, for a contraction
  index that is a `Fin`, with the inner and the whole sum over `Fin b` and `Fin (a · b)`.
-/
import Idealize.ShloMosaic.PureOps.Ideal

namespace Cert.LibSumRuns

/-- A sum over `a · b` consecutive naturals, taken in `a` runs of `b`. -/
theorem sum_range_mul {M : Type*} [AddCommMonoid M] (f : ℕ → M) (a b : ℕ) :
    ∑ d ∈ Finset.range a, ∑ l ∈ Finset.range b, f (b * d + l) = ∑ k ∈ Finset.range (a * b), f k := by
  induction a with
  | zero => simp
  | succ a ih =>
    rw [Finset.sum_range_succ, ih, Nat.succ_mul, Finset.sum_range_add, Nat.mul_comm b a]

/-- The same with each run indexed by `Fin b` and the whole sum by `Fin (a · b)`. -/
theorem sum_fin_runs {M : Type*} [AddCommMonoid M] (f : ℕ → M) (a b : ℕ) :
    ∑ d ∈ Finset.range a, ∑ l : Fin b, f (b * d + l.val) = ∑ k : Fin (a * b), f k.val := by
  rw [Fin.sum_univ_eq_sum_range (fun k => f k) (a * b), ← sum_range_mul f a b]
  refine Finset.sum_congr rfl fun d _ => ?_
  exact Fin.sum_univ_eq_sum_range (fun l => f (b * d + l)) b

end Cert.LibSumRuns
-- ==== Proof.LibBlockSums.lean ====
/-
  Sums over blocks, and sums of indicators, on the extended reals.

  A sum over `Fin (a · b)` is the sum over its `a` blocks of `b` consecutive indices; a finite sum of ones and
  zeros is the number of ones, as a natural cast through the reals; such a cast is positive exactly when the
  natural is; and its maximum with one is the cast of the naturals' maximum.
-/
import Idealize.ShloMosaic.PureOps.Ideal
import proofs.«145820_j27006754357707_2_alg».proof.Proof.LibSumRuns

namespace Cert.LibBlockSums

/-- Index `b · d + l` of block `d` lies below `a · b`. -/
theorem block_lt {a b d l : ℕ} (hd : d < a) (hl : l < b) : b * d + l < a * b := by
  calc b * d + l < b * d + b := Nat.add_lt_add_left hl _
    _ = b * (d + 1) := (Nat.mul_succ b d).symm
    _ ≤ b * a := Nat.mul_le_mul_left b hd
    _ = a * b := Nat.mul_comm b a

/-- A sum over `Fin (a · b)`, block by block. -/
theorem sum_fin_blocks {M : Type*} [AddCommMonoid M] (a b : ℕ) (g : Fin (a * b) → M) :
    ∑ k : Fin (a * b), g k = ∑ d : Fin a, ∑ l : Fin b, g ⟨b * d.val + l.val, block_lt d.isLt l.isLt⟩ := by
  have h := Cert.LibSumRuns.sum_fin_runs (fun k => if hk : k < a * b then g ⟨k, hk⟩ else 0) a b
  rw [← Fin.sum_univ_eq_sum_range (fun d => ∑ l : Fin b, (fun k => if hk : k < a * b then g ⟨k, hk⟩ else 0) (b * d + l.val)) a] at h
  calc ∑ k : Fin (a * b), g k
      = ∑ k : Fin (a * b), (fun k => if hk : k < a * b then g ⟨k, hk⟩ else 0) k.val :=
        Finset.sum_congr rfl fun k _ => by simp only [dif_pos k.isLt]
    _ = _ := h.symm
    _ = _ := Finset.sum_congr rfl fun d _ => Finset.sum_congr rfl fun l _ => by
        simp only [dif_pos (block_lt d.isLt l.isLt)]

/-- A finite sum of ones and zeros is the number of ones. -/
theorem sum_indicator {ι : Type*} [DecidableEq ι] (s : Finset ι) (P : ι → Prop) [DecidablePred P] :
    ∑ c ∈ s, (if P c then (1 : EReal) else 0) = (((s.filter P).card : ℝ) : EReal) := by
  induction s using Finset.induction_on with
  | empty => simp
  | insert a s ha ih =>
    rw [Finset.sum_insert ha, ih, Finset.filter_insert]
    by_cases h : P a
    · rw [if_pos h, if_pos h, Finset.card_insert_of_notMem (fun hm => ha (Finset.mem_filter.mp hm).1),
        Nat.cast_succ, EReal.coe_add, EReal.coe_one, add_comm]
    · rw [if_neg h, if_neg h, zero_add]

/-- The cast of a natural is positive exactly when the natural is. -/
theorem coe_nat_pos {n : ℕ} : (0 : EReal) < ((n : ℝ) : EReal) ↔ 0 < n := by
  rw [← EReal.coe_zero, EReal.coe_lt_coe_iff]; exact Nat.cast_pos

/-- The maximum of a natural's cast with one is the cast of the maximum with one. -/
theorem max_coe_nat_one (n : ℕ) : max (((n : ℝ)) : EReal) 1 = (((max n 1 : ℕ) : ℝ) : EReal) := by
  rw [Nat.cast_max, Nat.cast_one, EReal.coe_strictMono.monotone.map_max, EReal.coe_one]

end Cert.LibBlockSums
-- ==== Proof.BceSum.lean ====
/-
  The reconstruction sum, regrouped.

  One entrywise term is summed over a four-axis index set.  Read in row-major order as a matrix of
  393216 rows and 128 columns, the same terms are summed in 48 blocks of 8192 consecutive rows, the
  totals of blocks 0…23 and of blocks 24…47 are added up separately, and the two halves are added.
  Addition on the extended reals is a commutative monoid, so this is one finite sum re-indexed:
  the row-major correspondence is a bijection of index sets, a sum over a matrix index is a double
  sum over rows and columns, a sum over 48 · 8192 rows is the sum over its 48 runs of 8192, and a
  sum over 48 blocks is the sum over the first 24 plus the sum over the next 24.
-/
import proofs.«145820_j27006754357707_2_alg».proof.Proof.Spec
import proofs.«145820_j27006754357707_2_alg».proof.Proof.LibSumRuns
import proofs.«145820_j27006754357707_2_alg».proof.Proof.LibBlockSums
import Idealize.ShloMosaic.Lib.ValueIdx
import Idealize.ShloMosaic.Lib.Pipeline.Value
import Idealize.ShloMosaic.PureOps.ShapeOps

noncomputable section

open scoped BigOperators

namespace Cert.BceSum

open Cert.Spec Idealize.ShloMosaic Idealize.ShloMosaic.ValueIdx

abbrev S4 : Shape := ⟨4, ![1024, 3, 128, 128]⟩
abbrev S2 : Shape := ⟨2, ![393216, 128]⟩

theorem row_lt {n : ℕ} (h : n < 48) (r : Fin 8192) : 8192 * n + r.val < 393216 := by have := r.isLt; omega

/-- The total of block n (rows 8192·n … 8192·n + 8191) of the two flattened arrays; zero past the 48 blocks. -/
def blockSum (A0 A1 : S2.Idx → EReal) (n : ℕ) : EReal :=
  if h : n < 48 then ∑ r : Fin 8192, ∑ l : Fin 128,
      bce (A0 (ix2 ⟨8192 * n + r.val, row_lt h r⟩ l)) (A1 (ix2 ⟨8192 * n + r.val, row_lt h r⟩ l))
  else 0

/-- Below 48 a block's total is the double sum over its rows and columns. -/
theorem blockSum_of_lt (A0 A1 : S2.Idx → EReal) (d : Fin 48) :
    blockSum A0 A1 d.val = ∑ r : Fin 8192, ∑ l : Fin 128,
      bce (A0 (ix2 ⟨8192 * d.val + r.val, row_lt d.isLt r⟩ l))
        (A1 (ix2 ⟨8192 * d.val + r.val, row_lt d.isLt r⟩ l)) := by
  unfold blockSum
  exact dif_pos d.isLt

/-- The 48 block totals add up to the sum over the whole matrix index set: rows first, then the
    393216 = 48 · 8192 rows in 48 runs of 8192. -/
theorem sum_blocks (A0 A1 : S2.Idx → EReal) :
    ∑ s ∈ Finset.range 48, blockSum A0 A1 s = ∑ j : S2.Idx, bce (A0 j) (A1 j) := by
  have h1 : ∑ s ∈ Finset.range 48, blockSum A0 A1 s = ∑ d : Fin 48, blockSum A0 A1 d.val :=
    (Fin.sum_univ_eq_sum_range (fun s => blockSum A0 A1 s) 48).symm
  have h2 : ∑ j : S2.Idx, bce (A0 j) (A1 j)
      = ∑ a : Fin 393216, ∑ l : Fin 128, bce (A0 (ix2 a l)) (A1 (ix2 a l)) :=
    sum_idx2 (fun j : S2.Idx => bce (A0 j) (A1 j))
  have h3 : ∑ a : Fin 393216, ∑ l : Fin 128, bce (A0 (ix2 a l)) (A1 (ix2 a l))
      = ∑ d : Fin 48, ∑ r : Fin 8192, ∑ l : Fin 128,
          bce (A0 (ix2 ⟨8192 * d.val + r.val, row_lt d.isLt r⟩ l))
            (A1 (ix2 ⟨8192 * d.val + r.val, row_lt d.isLt r⟩ l)) :=
    Cert.LibBlockSums.sum_fin_blocks 48 8192
      (fun a : Fin 393216 => ∑ l : Fin 128, bce (A0 (ix2 a l)) (A1 (ix2 a l)))
  rw [h1, h2, h3]
  exact Finset.sum_congr rfl fun d _ => blockSum_of_lt A0 A1 d

/-- Reading both arrays through the row-major correspondence of the two index sets does not change
    the sum of the entrywise terms: the correspondence is a bijection. -/
theorem sum_shapeCast (x0 x1 : S4.Idx → EReal) (h : S4.ShapeCasts S2) :
    ∑ j : S2.Idx, bce (shapeCast S2 x0 h j) (shapeCast S2 x1 h j) = ∑ i : S4.Idx, bce (x0 i) (x1 i) :=
  Equiv.sum_comp (Shape.reshapeEquiv h) (fun i : S4.Idx => bce (x0 i) (x1 i))

theorem bce_total (x0 x1 : S4.Idx → EReal) (h : S4.ShapeCasts S2) :
    (∑ s ∈ Finset.range 24, blockSum (shapeCast S2 x0 h) (shapeCast S2 x1 h) s)
      + (∑ s ∈ Finset.range 24, blockSum (shapeCast S2 x0 h) (shapeCast S2 x1 h) (24 + s))
      = ∑ i : S4.Idx, bce (x0 i) (x1 i) :=
  calc (∑ s ∈ Finset.range 24, blockSum (shapeCast S2 x0 h) (shapeCast S2 x1 h) s)
        + (∑ s ∈ Finset.range 24, blockSum (shapeCast S2 x0 h) (shapeCast S2 x1 h) (24 + s))
      = ∑ s ∈ Finset.range 48, blockSum (shapeCast S2 x0 h) (shapeCast S2 x1 h) s :=
        (Finset.sum_range_add (fun s => blockSum (shapeCast S2 x0 h) (shapeCast S2 x1 h) s) 24 24).symm
    _ = ∑ j : S2.Idx, bce (shapeCast S2 x0 h j) (shapeCast S2 x1 h j) := sum_blocks _ _
    _ = ∑ i : S4.Idx, bce (x0 i) (x1 i) := sum_shapeCast x0 x1 h

end Cert.BceSum

end
-- ==== Proof.Region0Blocks.lean ====
/-
  The first kernel region's input blocks, read out of their arrays.

  An input window's block at point t is rows 8192·t … 8192·t + 8191 of its array, all 128 lanes.
  So the total of the block point n reads is the block total of the two flattened arrays, and each of
  the two result entries is the sum of 24 consecutive block totals.
-/
import proofs.«145820_j27006754357707_2_alg».proof.Proof.Region0Array
import proofs.«145820_j27006754357707_2_alg».proof.Proof.BceSum

set_option maxRecDepth 16384

noncomputable section

open scoped BigOperators

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Input window 0's block at point t, at row r and lane l, is the first array at row 8192·t + r, lane l:
    the block index at t is (t, 0) and a block's coordinate is index × block size + the inner coordinate. -/
theorem iblk0_0_apply (c : Dev nD) (t : Fin cfg0.N) (r : Fin 8192) (l : Fin 128) (h : 8192 * t.val + r.val < 393216) :
    iblk0 V c 0 t (ix2 r l) = V c main_v0 (ix2 ⟨8192 * t.val + r.val, h⟩ l) := by
  have hi := idx_facts t
  unfold iblk0
  rw [View.read_apply]
  show V c main_v0 _ = V c main_v0 _
  refine congrArg (V c main_v0) (funext fun a => Fin.ext ?_)
  match a with
  | ⟨0, _⟩ =>
    show win0_0.index t 0 * 8192 + 1 * r.val = 8192 * t.val + r.val
    rw [hi.1]; omega
  | ⟨1, _⟩ =>
    show win0_0.index t 1 * 128 + 1 * l.val = l.val
    rw [hi.2.1]; omega

/-- The same for input window 1 and the second array. -/
theorem iblk0_1_apply (c : Dev nD) (t : Fin cfg0.N) (r : Fin 8192) (l : Fin 128) (h : 8192 * t.val + r.val < 393216) :
    iblk0 V c 1 t (ix2 r l) = V c main_v1 (ix2 ⟨8192 * t.val + r.val, h⟩ l) := by
  have hi := idx_facts t
  unfold iblk0
  rw [View.read_apply]
  show V c main_v1 _ = V c main_v1 _
  refine congrArg (V c main_v1) (funext fun a => Fin.ext ?_)
  match a with
  | ⟨0, _⟩ =>
    show win0_1.index t 0 * 8192 + 1 * r.val = 8192 * t.val + r.val
    rw [hi.2.2.1]; omega
  | ⟨1, _⟩ =>
    show win0_1.index t 1 * 128 + 1 * l.val = l.val
    rw [hi.2.2.2.1]; omega

/-- The total of the block point n reads is the total of block n of the two arrays (both zero past the grid). -/
theorem tot_eq_blockSum (c : Dev nD) (n : ℕ) :
    tot V c n = Cert.BceSum.blockSum (V c main_v0) (V c main_v1) n := by
  have hN : cfg0.N = 48 := N_0
  by_cases hn : n < 48
  · have hn' : n < cfg0.N := by rw [hN]; exact hn
    rw [tot_of_lt V c n hn']
    unfold Cert.BceSum.blockSum blockTotal
    rw [dif_pos hn]
    refine Finset.sum_congr rfl fun r _ => Finset.sum_congr rfl fun l _ => ?_
    exact congrArg₂ bce (iblk0_0_apply V c ⟨n, hn'⟩ r l (Cert.BceSum.row_lt hn r))
      (iblk0_1_apply V c ⟨n, hn'⟩ r l (Cert.BceSum.row_lt hn r))
  · have hn' : ¬ n < cfg0.N := by rw [hN]; exact hn
    unfold tot Cert.BceSum.blockSum
    rw [dif_neg hn', dif_neg hn]

/-- Entry (8·q, 0) of the result is the sum of the totals of blocks 24·q … 24·q + 23 of the two arrays:
    tile q is written back after point 24·q + 23, the last of its run, and its entry (0, 0) then holds the
    running sum over that run. -/
theorem entry_eq (c : Dev nD) (q : Fin 2) (hq : 8 * q.val < 16) :
    (dat0 V c).arrAt 2 cfg0.N (ix2 (⟨8 * q.val, hq⟩ : Fin 16) (0 : Fin 128))
      = ∑ s ∈ Finset.range 24, Cert.BceSum.blockSum (V c main_v0) (V c main_v1) (24 * q.val + s) := by
  have hN : cfg0.N = 48 := N_0
  have hq2 : q.val < 2 := q.isLt
  have ht : 24 * q.val + 23 < cfg0.N := by rw [hN]; omega
  have hf : (24 * q.val + 23) % 24 = 23 := by omega
  have hi := idx_facts ⟨24 * q.val + 23, ht⟩
  have hb := arr_block V c ⟨24 * q.val + 23, ht⟩ hf (ix2 (0 : Fin 8) (0 : Fin 128))
  have he : ((cfg0.win 2).blk ⟨24 * q.val + 23, ht⟩).view.emb (ix2 (0 : Fin 8) (0 : Fin 128))
      = ix2 (⟨8 * q.val, hq⟩ : Fin 16) (0 : Fin 128) := by
    refine funext fun a => Fin.ext ?_
    match a with
    | ⟨0, _⟩ =>
      show win0_2.index ⟨24 * q.val + 23, ht⟩ 0 * 8 + 1 * 0 = 8 * q.val
      rw [hi.2.2.2.2.1]
      show (24 * q.val + 23) / 24 * 8 + 1 * 0 = 8 * q.val
      omega
    | ⟨1, _⟩ =>
      show win0_2.index ⟨24 * q.val + 23, ht⟩ 1 * 128 + 1 * 0 = 0
      rw [hi.2.2.2.2.2]
  rw [he] at hb
  have hsum : (∑ s ∈ Finset.range ((24 * q.val + 23) % 24 + 1),
        tot V c (24 * q.val + 23 - (24 * q.val + 23) % 24 + s) : EReal)
      = ∑ s ∈ Finset.range 24, Cert.BceSum.blockSum (V c main_v0) (V c main_v1) (24 * q.val + s) := by
    rw [hf]
    refine Finset.sum_congr rfl fun s _ => ?_
    rw [tot_eq_blockSum]
    refine congrArg (Cert.BceSum.blockSum (V c main_v0) (V c main_v1)) ?_
    omega
  exact (hb.trans (acc_eq V c (24 * q.val + 23) ht)).trans hsum

end Cert.KernelIdeal.Region0

end
-- ==== Proof.Region1Array.lean ====
/-
  The second kernel region's two output arrays after the run.

  The region's grid has one point. Each of its eight input windows has the whole array as its one block, so the
  block the body reads is the array as the region finds it; each of its two output windows has the whole 1 × 1
  array as its one block, written back at the one point, so the array after the run is what the body stored:
  the body's payloads of the eight argument arrays.
-/
import proofs.«145820_j27006754357707_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Region1A

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F] (V : (c : Dev nD) → (b : Ref sig .tc) → Buf (Elt F) ((c : Thread nD τ).loc b))

/-! ## The input blocks: each is the whole array -/

/-- Input window 0's block is its whole array. -/
theorem iblk1_0 (c : Dev nD) (t : Fin cfg1.N) : iblk1 V c 0 t = V c main_arg2 := by
  obtain rfl : t = t1_0 := fin_N1 t
  unfold iblk1
  have hz' : (fun a => win1_0.index t1_0 a * main_arg2.ty.shape.size a) = fun _ => 0 :=
    funext fun a => by fin_cases a <;> decide
  exact Memref.read_access_unit_zero (Elt F) main_arg2 hz' (fun a => by rw [congrFun hz' a]; simp) (V c main_arg2)

/-- Input window 1's block is its whole array. -/
theorem iblk1_1 (c : Dev nD) (t : Fin cfg1.N) : iblk1 V c 1 t = V c main_arg3 := by
  obtain rfl : t = t1_0 := fin_N1 t
  unfold iblk1
  have hz' : (fun a => win1_1.index t1_0 a * main_arg3.ty.shape.size a) = fun _ => 0 :=
    funext fun a => by fin_cases a <;> decide
  exact Memref.read_access_unit_zero (Elt F) main_arg3 hz' (fun a => by rw [congrFun hz' a]; simp) (V c main_arg3)

/-- Input window 2's block is its whole array. -/
theorem iblk1_2 (c : Dev nD) (t : Fin cfg1.N) : iblk1 V c 2 t = V c main_arg4 := by
  obtain rfl : t = t1_0 := fin_N1 t
  unfold iblk1
  have hz' : (fun a => win1_2.index t1_0 a * main_arg4.ty.shape.size a) = fun _ => 0 :=
    funext fun a => by fin_cases a <;> decide
  exact Memref.read_access_unit_zero (Elt F) main_arg4 hz' (fun a => by rw [congrFun hz' a]; simp) (V c main_arg4)

/-- Input window 3's block is its whole array. -/
theorem iblk1_3 (c : Dev nD) (t : Fin cfg1.N) : iblk1 V c 3 t = V c main_arg5 := by
  obtain rfl : t = t1_0 := fin_N1 t
  unfold iblk1
  have hz' : (fun a => win1_3.index t1_0 a * main_arg5.ty.shape.size a) = fun _ => 0 :=
    funext fun a => by fin_cases a <;> decide
  exact Memref.read_access_unit_zero (Elt F) main_arg5 hz' (fun a => by rw [congrFun hz' a]; simp) (V c main_arg5)

/-- Input window 4's block is its whole array. -/
theorem iblk1_4 (c : Dev nD) (t : Fin cfg1.N) : iblk1 V c 4 t = V c main_arg6 := by
  obtain rfl : t = t1_0 := fin_N1 t
  unfold iblk1
  have hz' : (fun a => win1_4.index t1_0 a * main_arg6.ty.shape.size a) = fun _ => 0 :=
    funext fun a => by fin_cases a <;> decide
  exact Memref.read_access_unit_zero (Elt F) main_arg6 hz' (fun a => by rw [congrFun hz' a]; simp) (V c main_arg6)

/-- Input window 5's block is its whole array. -/
theorem iblk1_5 (c : Dev nD) (t : Fin cfg1.N) : iblk1 V c 5 t = V c main_arg7 := by
  obtain rfl : t = t1_0 := fin_N1 t
  unfold iblk1
  have hz' : (fun a => win1_5.index t1_0 a * main_arg7.ty.shape.size a) = fun _ => 0 :=
    funext fun a => by fin_cases a <;> decide
  exact Memref.read_access_unit_zero (Elt F) main_arg7 hz' (fun a => by rw [congrFun hz' a]; simp) (V c main_arg7)

/-- Input window 6's block is its whole array. -/
theorem iblk1_6 (c : Dev nD) (t : Fin cfg1.N) : iblk1 V c 6 t = V c main_arg8 := by
  obtain rfl : t = t1_0 := fin_N1 t
  unfold iblk1
  have hz' : (fun a => win1_6.index t1_0 a * main_arg8.ty.shape.size a) = fun _ => 0 :=
    funext fun a => by fin_cases a <;> decide
  exact Memref.read_access_unit_zero (Elt F) main_arg8 hz' (fun a => by rw [congrFun hz' a]; simp) (V c main_arg8)

/-- Input window 7's block is its whole array. -/
theorem iblk1_7 (c : Dev nD) (t : Fin cfg1.N) : iblk1 V c 7 t = V c main_arg9 := by
  obtain rfl : t = t1_0 := fin_N1 t
  unfold iblk1
  have hz' : (fun a => win1_7.index t1_0 a * main_arg9.ty.shape.size a) = fun _ => 0 :=
    funext fun a => by fin_cases a <;> decide
  exact Memref.read_access_unit_zero (Elt F) main_arg9 hz' (fun a => by rw [congrFun hz' a]; simp) (V c main_arg9)

/-! ## The output arrays -/

/-- What the one write-back of window 8 writes is the first payload, read through the window's one block. -/
theorem flushed8 (c : Dev nD) (t : Fin cfg1.N) :
    (dat1 V c).flushed 8 t
      = ((cfg1.win 8).blk t).view.read (Elt F) (k1_pay2 (V c main_arg2) (V c main_arg3)) := by
  obtain rfl : t = t1_0 := fin_N1 t
  have hz : (![0, 0] : Fin 2 → Nat) = fun _ => 0 := funext fun a => by fin_cases a <;> rfl
  show (cfg1.win 8).cut (grid1.coords t1_0) ((dat1 V c).after 8 t1_0) = _
  rw [after1_8, iblk1_0, iblk1_1, iblk1_2, iblk1_3, iblk1_4, iblk1_5, iblk1_6, iblk1_7]
  unfold out1_8
  rw [View.canon_unit_zero hz]
  simp only [View.ld_unit_zero (S := S1024x128) hz]
  have hz' : (fun a => win1_8.index t1_0 a * main_v10_0.ty.shape.size a) = fun _ => 0 :=
    funext fun a => by fin_cases a <;> decide
  exact (Memref.read_access_unit_zero (Elt F) main_v10_0 hz' (fun a => by rw [congrFun hz' a]; simp) _).symm

/-- The first output array after the run: the body's stored value of the first two argument arrays. -/
theorem arr8 (c : Dev nD) : (dat1 V c).arrAt 8 cfg1.N = k1_pay2 (V c main_arg2) (V c main_arg3) :=
  (dat1 V c).arrAt_eq_of_cover 8 (k1_pay2 (V c main_arg2) (V c main_arg3)) (fun t _ => flushed8 V c t) fun i =>
    ⟨t1_0, flush1_8 t1_0, by
      show i ∈ ((View.whole main_v10_0).slice (win1_8.rect t1_0)).set
      rw [View.set_slice_whole, Rect.mem_set_unit]
      intro a
      have h0 : (i 0 : Nat) < 1 := (i 0).isLt
      have h1 : (i 1 : Nat) < 1 := (i 1).isLt
      match a with
      | ⟨0, _⟩ =>
        show win1_8.index t1_0 0 * win1_8.size 0 ≤ (i 0 : Nat)
          ∧ (i 0 : Nat) < win1_8.index t1_0 0 * win1_8.size 0 + win1_8.xsize (grid1.coords t1_0) 0
        rw [show win1_8.index t1_0 0 * win1_8.size 0 = 0 from by decide +kernel,
          show win1_8.xsize (grid1.coords t1_0) 0 = 1 from by decide +kernel]
        omega
      | ⟨1, _⟩ =>
        show win1_8.index t1_0 1 * win1_8.size 1 ≤ (i 1 : Nat)
          ∧ (i 1 : Nat) < win1_8.index t1_0 1 * win1_8.size 1 + win1_8.xsize (grid1.coords t1_0) 1
        rw [show win1_8.index t1_0 1 * win1_8.size 1 = 0 from by decide +kernel,
          show win1_8.xsize (grid1.coords t1_0) 1 = 1 from by decide +kernel]
        omega⟩

/-- What the one write-back of window 9 writes is the second payload, read through the window's one block. -/
theorem flushed9 (c : Dev nD) (t : Fin cfg1.N) :
    (dat1 V c).flushed 9 t
      = ((cfg1.win 9).blk t).view.read (Elt F)
        (k1_pay1 (V c main_arg8) (k1_pay10 (V c main_arg6) (V c main_arg7) (k1_pay4 (V c main_arg7)) (k1_pay5 (V c main_arg5) (V c main_arg7)) (k1_pay6 (V c main_arg4) (V c main_arg6)) (k1_pay7 (V c main_arg5) (V c main_arg7)) (k1_pay8 (V c main_arg5) (V c main_arg7)) (k1_pay9 (V c main_arg4) (V c main_arg6)))
      (k1_pay12 (V c main_arg9)) (k1_pay13 (V c main_arg5) (V c main_arg9)) (k1_pay14 (V c main_arg4) (V c main_arg8)) (k1_pay16 (V c main_arg4) (V c main_arg5) (V c main_arg8) (V c main_arg9)) (k1_pay17 (V c main_arg5) (V c main_arg9))) := by
  obtain rfl : t = t1_0 := fin_N1 t
  have hz : (![0, 0] : Fin 2 → Nat) = fun _ => 0 := funext fun a => by fin_cases a <;> rfl
  show (cfg1.win 9).cut (grid1.coords t1_0) ((dat1 V c).after 9 t1_0) = _
  rw [after1_9, iblk1_0, iblk1_1, iblk1_2, iblk1_3, iblk1_4, iblk1_5, iblk1_6, iblk1_7]
  unfold out1_9
  rw [View.canon_unit_zero hz]
  simp only [View.ld_unit_zero (S := S1024x128) hz]
  have hz' : (fun a => win1_9.index t1_0 a * main_v10_1.ty.shape.size a) = fun _ => 0 :=
    funext fun a => by fin_cases a <;> decide
  exact (Memref.read_access_unit_zero (Elt F) main_v10_1 hz' (fun a => by rw [congrFun hz' a]; simp) _).symm

/-- The second output array after the run: the body's stored value of the last six argument arrays. -/
theorem arr9 (c : Dev nD) : (dat1 V c).arrAt 9 cfg1.N
    = k1_pay1 (V c main_arg8) (k1_pay10 (V c main_arg6) (V c main_arg7) (k1_pay4 (V c main_arg7)) (k1_pay5 (V c main_arg5) (V c main_arg7)) (k1_pay6 (V c main_arg4) (V c main_arg6)) (k1_pay7 (V c main_arg5) (V c main_arg7)) (k1_pay8 (V c main_arg5) (V c main_arg7)) (k1_pay9 (V c main_arg4) (V c main_arg6)))
      (k1_pay12 (V c main_arg9)) (k1_pay13 (V c main_arg5) (V c main_arg9)) (k1_pay14 (V c main_arg4) (V c main_arg8)) (k1_pay16 (V c main_arg4) (V c main_arg5) (V c main_arg8) (V c main_arg9)) (k1_pay17 (V c main_arg5) (V c main_arg9)) :=
  (dat1 V c).arrAt_eq_of_cover 9 _ (fun t _ => flushed9 V c t) fun i =>
    ⟨t1_0, flush1_9 t1_0, by
      show i ∈ ((View.whole main_v10_1).slice (win1_9.rect t1_0)).set
      rw [View.set_slice_whole, Rect.mem_set_unit]
      intro a
      have h0 : (i 0 : Nat) < 1 := (i 0).isLt
      have h1 : (i 1 : Nat) < 1 := (i 1).isLt
      match a with
      | ⟨0, _⟩ =>
        show win1_9.index t1_0 0 * win1_9.size 0 ≤ (i 0 : Nat)
          ∧ (i 0 : Nat) < win1_9.index t1_0 0 * win1_9.size 0 + win1_9.xsize (grid1.coords t1_0) 0
        rw [show win1_9.index t1_0 0 * win1_9.size 0 = 0 from by decide +kernel,
          show win1_9.xsize (grid1.coords t1_0) 0 = 1 from by decide +kernel]
        omega
      | ⟨1, _⟩ =>
        show win1_9.index t1_0 1 * win1_9.size 1 ≤ (i 1 : Nat)
          ∧ (i 1 : Nat) < win1_9.index t1_0 1 * win1_9.size 1 + win1_9.xsize (grid1.coords t1_0) 1
        rw [show win1_9.index t1_0 1 * win1_9.size 1 = 0 from by decide +kernel,
          show win1_9.xsize (grid1.coords t1_0) 1 = 1 from by decide +kernel]
        omega⟩

end Cert.KernelIdeal.Region1A

end
-- ==== Proof.Region1Value.lean ====
/-
  The second kernel region's two results, read at their one entry.

  The region's body sees the eight latent arrays whole (its grid is one point). It stores two 1×1 values:
  the sum over all rows and lanes of the KL term 1 + ℓ − μ² − e^ℓ, and the sum over the rows of the sigmoid
  of the difference of the two Jensen–Shannon scores of the row. Both are written with the vector unit's
  keep-dims sums: a lane sum of each row kept as a 1024×1 column, then a sum down the column into one entry.
  Here each stored value is read at its entry as a sum over Fin 1024 (and Fin 128) of the entrywise terms of
  the specification.
-/
import proofs.«145820_j27006754357707_2_alg».proof.Proof.Gen.KernelIdeal.Frame
import proofs.«145820_j27006754357707_2_alg».proof.Proof.Spec
import proofs.«145820_j27006754357707_2_alg».proof.Proof.LibColumns
import proofs.«145820_j27006754357707_2_alg».proof.Proof.LibColumnSum
import Idealize.ShloMosaic.Lib.Pipeline.Value
import Idealize.ShloMosaic.Lib.ValueIdx
import Idealize.ShloMosaic.PureOps.Ideal.Laws

noncomputable section

open scoped BigOperators

namespace Cert.KernelIdeal.Region1

open Cert.KernelIdeal Cert.KernelIdeal.Gen Cert.Spec
open Idealize.ShloMosaic Idealize.ShloMosaic.ValueIdx
open Cert.Proof.Columns Cert.Proof.ColumnSum

theorem hz : (![0, 0] : Fin 2 → Nat) = fun _ => 0 := funext fun a => by fin_cases a <;> rfl

/-- The lane sum of a 1024×128 array, kept as a column, at row `r`: the sum of the row's 128 entries. -/
theorem rowsum_apply (x : FVec Ideal S1024x128 .f32) (r : Fin 1024) :
    shapeCast S1024x1 (multiReduction (F := Ideal) .add [1] S1024 x 0x00000000#32 reduces_S1024x128_S1024 (.inl rfl) rfl)
      shapeCasts_S1024_S1024x1 (ix2 r (0 : Fin 1)) = ∑ l : Fin 128, x (ix2 r l) :=
  (shapeCast_a_a1_apply _ _ r 0).trans (multiReduction_add_rows x _ _ _ _ r)

/-- The sum down a 1024×1 column, kept as a 1×1 array, at its entry: the sum of the column's 1024 entries. -/
theorem colsum_apply (x : FVec Ideal S1024x1 .f32) :
    shapeCast S1x1 (multiReduction (F := Ideal) .add [0] S1 x 0x00000000#32 reduces_S1024x1_S1 (.inl rfl) rfl)
      shapeCasts_S1_S1x1 (ix2 (0 : Fin 1) (0 : Fin 1)) = ∑ r : Fin 1024, x (ix2 r (0 : Fin 1)) :=
  (shapeCast_a_a1_apply _ _ 0 0).trans (multiReduction_add_cols x _ _ _ _ 0)

/-- The first stored value: the sum over rows and lanes of the KL term of the mean `v0` and log-variance `v1`. -/
theorem klsum_eq (v0 v1 : FVec Ideal S1024x128 .f32) :
    k1_pay2 (F := Ideal) v0 v1 (ix2 (0 : Fin 1) (0 : Fin 1))
      = ∑ r : Fin 1024, ∑ l : Fin 128, kl (v0 (ix2 r l)) (v1 (ix2 r l)) := by
  unfold k1_pay2
  refine (colsum_apply _).trans ?_
  refine Finset.sum_congr rfl fun r _ => ?_
  refine (rowsum_apply _ r).trans ?_
  refine Finset.sum_congr rfl fun l _ => ?_
  rfl

end Cert.KernelIdeal.Region1

end
-- ==== Proof.Region1Triplet.lean ====
/-
  The second kernel region's second result: the sum over the rows of the first softmax weight.

  Per row r the body computes the anchor–positive score and the anchor–negative score, each written as
  0 − ½(½ Σ_l t₁ + ½ Σ_l t₂) with t₁, t₂ the two coordinatewise terms of the Kullback–Leibler divergences against
  the mixture and the sums taken over the row's 128 lanes, then 1 / (1 + e^{0 − (a − b)}), and sums that
  down the 1024 rows. Here the stored value is read at its one entry as the sum over Fin 1024 of
  sigmoidDiff of the two scores of the specification. On the extended reals 0 − x is −x.
-/
import proofs.«145820_j27006754357707_2_alg».proof.Proof.Gen.KernelIdeal.Frame
import proofs.«145820_j27006754357707_2_alg».proof.Proof.Spec
import proofs.«145820_j27006754357707_2_alg».proof.Proof.LibColumns
import proofs.«145820_j27006754357707_2_alg».proof.Proof.LibColumnSum
import proofs.«145820_j27006754357707_2_alg».proof.Proof.Region1Value
import Idealize.ShloMosaic.Lib.Pipeline.Value
import Idealize.ShloMosaic.Lib.ValueIdx
import Idealize.ShloMosaic.PureOps.Ideal.Laws

noncomputable section

open scoped BigOperators

namespace Cert.KernelIdeal.Region1T

open Cert.KernelIdeal Cert.KernelIdeal.Gen Cert.Spec
open Idealize.ShloMosaic Idealize.ShloMosaic.ValueIdx
open Cert.Proof.Columns Cert.Proof.ColumnSum
open Cert.KernelIdeal.Region1

/-- The lane sum of a 1024×128 array kept as a 1024×1 column. -/
abbrev rowsumCol (x : FVec Ideal S1024x128 .f32) : FVec Ideal S1024x1 .f32 :=
  shapeCast S1024x1 (multiReduction (F := Ideal) .add [1] S1024 x 0x00000000#32 reduces_S1024x128_S1024 (.inl rfl) rfl)
    shapeCasts_S1024_S1024x1

/-- The word of +0.0 denotes 0, and 0 − x = −x. -/
theorem zero_word_sub (x : EReal) : Ideal.ofBits .f32 0x00000000#32 - x = -x := by
  rw [Ideal.ofBits_zero_f32, zero_sub]

/-- ½ of a lane sum, at row r. -/
theorem half_rowsum_apply (A : FVec Ideal S1024x128 .f32) (r : Fin 1024) :
    mulf (broadcast S1024x1 (Scalar.ofBits (F := Ideal) .f32 0x3F000000#32)) (rowsumCol A) (ix2 r (0 : Fin 1))
      = kHalf * ∑ l : Fin 128, A (ix2 r l) := by
  show kHalf * rowsumCol A (ix2 r (0 : Fin 1)) = _
  exact congrArg (kHalf * ·) (rowsum_apply A r)

/-- 0 − ½(c + ½ Σ_l B), at row r, for a column c and an array B. -/
theorem neg_half_mix_apply (c : FVec Ideal S1024x1 .f32) (B : FVec Ideal S1024x128 .f32) (r : Fin 1024) :
    subf (broadcast S1024x1 (Scalar.ofBits (F := Ideal) .f32 0x00000000#32))
        (mulf (broadcast S1024x1 (Scalar.ofBits (F := Ideal) .f32 0x3F000000#32))
          (addf c (mulf (broadcast S1024x1 (Scalar.ofBits (F := Ideal) .f32 0x3F000000#32)) (rowsumCol B))))
        (ix2 r (0 : Fin 1))
      = -(kHalf * (c (ix2 r (0 : Fin 1)) + kHalf * ∑ l : Fin 128, B (ix2 r l))) := by
  show Ideal.ofBits .f32 0x00000000#32
      - kHalf * (c (ix2 r (0 : Fin 1))
          + mulf (broadcast S1024x1 (Scalar.ofBits (F := Ideal) .f32 0x3F000000#32)) (rowsumCol B) (ix2 r (0 : Fin 1))) = _
  rw [half_rowsum_apply B r, zero_word_sub]

/-- 1 / (1 + e^{0 − (a − b)}) at row r, for two columns a and b. -/
theorem sigmoid_col_apply (a b : FVec Ideal S1024x1 .f32) (r : Fin 1024) :
    divf (broadcast S1024x1 (Scalar.ofBits (F := Ideal) .f32 0x3F800000#32))
        (addf (broadcast S1024x1 (Scalar.ofBits (F := Ideal) .f32 0x3F800000#32))
          (exp (subf (broadcast S1024x1 (Scalar.ofBits (F := Ideal) .f32 0x00000000#32)) (subf a b))))
        (ix2 r (0 : Fin 1))
      = sigmoidDiff (a (ix2 r (0 : Fin 1))) (b (ix2 r (0 : Fin 1))) := by
  show Ideal.div kOne (kOne + Ideal.exp (Ideal.ofBits .f32 0x00000000#32 - (a (ix2 r (0 : Fin 1)) - b (ix2 r (0 : Fin 1))))) = _
  rw [zero_word_sub]
  rfl

/-- The anchor–positive score of row r, as the body writes it. -/
theorem score_ap (x2 x3 x4 x5 : FVec Ideal S1024x128 .f32) (r : Fin 1024) :
    k1_pay10 (F := Ideal) x4 x5 (k1_pay4 x5) (k1_pay5 x3 x5) (k1_pay6 x2 x4) (k1_pay7 x3 x5) (k1_pay8 x3 x5)
        (k1_pay9 x2 x4) (ix2 r (0 : Fin 1))
      = dAP x2 x3 x4 x5 r := by
  unfold k1_pay10
  refine (neg_half_mix_apply _ _ r).trans ?_
  refine congrArg (fun s => -(kHalf * s)) ?_
  refine congrArg₂ (· + ·) ((half_rowsum_apply _ r).trans ?_) ?_
  · exact congrArg (kHalf * ·) (Finset.sum_congr rfl fun l _ => rfl)
  · exact congrArg (kHalf * ·) (Finset.sum_congr rfl fun l _ => rfl)

/-- ½ of the lane sum of the anchor's term against the anchor–negative mixture, at row r. -/
theorem pay16_apply (x2 x3 x6 x7 : FVec Ideal S1024x128 .f32) (r : Fin 1024) :
    k1_pay16 (F := Ideal) x2 x3 x6 x7 (ix2 r (0 : Fin 1))
      = kHalf * ∑ l : Fin 128, klDiag (x2 (ix2 r l)) (x3 (ix2 r l)) (x2 (ix2 r l)) (x3 (ix2 r l)) (x6 (ix2 r l)) (x7 (ix2 r l)) := by
  unfold k1_pay16
  refine (half_rowsum_apply _ r).trans ?_
  exact congrArg (kHalf * ·) (Finset.sum_congr rfl fun l _ => rfl)

/-- The second stored value: the sum over the rows of the sigmoid of the difference of the row's two scores. -/
theorem probsum_eq (x2 x3 x4 x5 x6 x7 : FVec Ideal S1024x128 .f32) :
    k1_pay1 (F := Ideal) x6 (k1_pay10 x4 x5 (k1_pay4 x5) (k1_pay5 x3 x5) (k1_pay6 x2 x4) (k1_pay7 x3 x5) (k1_pay8 x3 x5) (k1_pay9 x2 x4))
        (k1_pay12 x7) (k1_pay13 x3 x7) (k1_pay14 x2 x6) (k1_pay16 x2 x3 x6 x7) (k1_pay17 x3 x7) (ix2 (0 : Fin 1) (0 : Fin 1))
      = ∑ r : Fin 1024, sigmoidDiff (dAP x2 x3 x4 x5 r) (dAP x2 x3 x6 x7 r) := by
  unfold k1_pay1
  refine (colsum_apply _).trans ?_
  refine Finset.sum_congr rfl fun r _ => ?_
  refine (sigmoid_col_apply _ _ r).trans ?_
  refine congrArg₂ sigmoidDiff (score_ap x2 x3 x4 x5 r) ?_
  refine (neg_half_mix_apply _ _ r).trans ?_
  refine congrArg (fun s => -(kHalf * s)) ?_
  refine congrArg₂ (· + ·) (pay16_apply x2 x3 x6 x7 r) ?_
  exact congrArg (kHalf * ·) (Finset.sum_congr rfl fun l _ => rfl)

end Cert.KernelIdeal.Region1T

end
-- ==== Proof.KernelValue.lean ====
/-
  The idealized kernel's four results as formulas of its argument arrays.

  The pieces are joined here: each result buffer at the last boundary is a host expression of the two regions'
  output arrays (the host lines read); the first region's output at entries (0, 0) and (8, 0) is the sum of 24 block
  totals each, and the 48 block totals of the reshaped image arrays add up to the sum of the log-likelihood term
  over the whole four-dimensional index; the second region's two outputs are the body's stored values of the eight
  latent arrays, read at their one entry as the KL sum and the sum of the sigmoids of the score differences.
-/
import proofs.«145820_j27006754357707_2_alg».proof.Proof.HostTail
import proofs.«145820_j27006754357707_2_alg».proof.Proof.Region0Blocks
import proofs.«145820_j27006754357707_2_alg».proof.Proof.Region1Array
import proofs.«145820_j27006754357707_2_alg».proof.Proof.Region1Triplet
import proofs.«145820_j27006754357707_2_alg».proof.Proof.BceSum

set_option maxRecDepth 16384

noncomputable section

open scoped BigOperators

namespace Cert.KernelIdeal.KernelValue

open Cert.KernelIdeal Cert.KernelIdeal.Gen Cert.Spec Cert.KernelIdeal.HostTail
open Idealize.ShloMosaic Idealize.ShloMosaic.TcCoe Idealize.ShloMosaic.ValueIdx Idealize.SL.Sem
open Idealize.ShloMosaic.Pipeline (Dat)

/-! ## The host expressions at their one index -/

/-- A 1×1 array cast to a scalar reads its one entry. -/
theorem scalar_of_1x1 (K : (⟨S1x1, .f32⟩ : BufTy).Contents (Elt Ideal)) (i : S_.Idx) :
    shapeCast S_ K shapeCasts_S1x1_S_ i = K (ix2 (0 : Fin 1) (0 : Fin 1)) :=
  shapeCast_apply K shapeCasts_S1x1_S_ i (ix2 (0 : Fin 1) (0 : Fin 1)) (by
    rw [Shape.rowMajor_val_two]
    show 0 * 1 + 0 = (Shape.rowMajorPi _ i).val
    rw [Shape.rowMajorPi_zero])

/-- The 1×1 slice of a 16×128 array at row `o`, lane 0, reads that entry. -/
theorem slice_at (A : (⟨S16x128, .f32⟩ : BufTy).Contents (Elt Ideal)) (o : Fin 16) (off : Fin 2 → Nat)
    (hoff : off = ![o.val, 0]) (h : S16x128.Slices off S1x1) :
    extractStridedSlice S1x1 off A h (ix2 (0 : Fin 1) (0 : Fin 1)) = A (ix2 o (0 : Fin 128)) := by
  subst hoff
  exact extractStridedSlice_apply _ A h _ (ix2 o (0 : Fin 128)) (fun a => by
    match a with
    | ⟨0, _⟩ => rfl
    | ⟨1, _⟩ => rfl)

theorem reconOf_apply (A : (⟨S16x128, .f32⟩ : BufTy).Contents (Elt Ideal)) (i : S_.Idx) :
    reconOf (F := Ideal) A i
      = Ideal.div (-(A (ix2 (0 : Fin 16) (0 : Fin 128)) + A (ix2 (8 : Fin 16) (0 : Fin 128)))) nPix := by
  unfold reconOf
  show Ideal.div (-(shapeCast S_ (extractStridedSlice S1x1 ![0, 0] A slices_S16x128_S1x1_0_0) shapeCasts_S1x1_S_ i
      + shapeCast S_ (extractStridedSlice S1x1 ![8, 0] A slices_S16x128_S1x1_8_0) shapeCasts_S1x1_S_ i))
      (Ideal.ofBits .f32 0x4C400000#32) = _
  rw [scalar_of_1x1, scalar_of_1x1, slice_at A 0 ![0, 0] rfl, slice_at A 8 ![8, 0] rfl]

theorem klOf_apply (K : (⟨S1x1, .f32⟩ : BufTy).Contents (Elt Ideal)) (i : S_.Idx) :
    klOf (F := Ideal) K i = kNegHalf * Ideal.div (K (ix2 (0 : Fin 1) (0 : Fin 1))) nLat := by
  unfold klOf
  show Ideal.ofBits .f32 0xBF000000#32 * Ideal.div (shapeCast S_ K shapeCasts_S1x1_S_ i) (Ideal.ofBits .f32 0x48000000#32) = _
  rw [scalar_of_1x1]

theorem tripOf_apply (P : (⟨S1x1, .f32⟩ : BufTy).Contents (Elt Ideal)) (i : S_.Idx) :
    tripOf (F := Ideal) P i = -(Ideal.div (P (ix2 (0 : Fin 1) (0 : Fin 1))) nRow) := by
  unfold tripOf
  show -(Ideal.div (shapeCast S_ P shapeCasts_S1x1_S_ i) (Ideal.ofBits .f32 0x44800000#32)) = _
  rw [scalar_of_1x1]

theorem totalOf_apply (r k p : (⟨S_, .f32⟩ : BufTy).Contents (Elt Ideal)) (i : S_.Idx) :
    totalOf (F := Ideal) r k p i = (r i + kOne * k i) + kOne * p i := rfl

/-! ## The four results -/

section Main
variable (m : (ℓ : Loc nD τ sig) → Buf (Elt Ideal) ℓ) (ρ : Dev nD → PrngReg)

/-- The reconstruction loss: minus the sum of the log-likelihood term over every pixel, divided by the number of
    pixels — the 48 block totals the two tiles accumulate are that sum. -/
theorem recon_value (c : Dev nD) (i : S_.Idx) :
    W5 m ρ c (Proc.devRef .tc main_v9) i
      = Ideal.div (-(∑ j : S1024x3x128x128.Idx,
          bce (m ((c.tc : Thread nD τ).loc main_arg0) j) (m ((c.tc : Thread nD τ).loc main_arg1) j))) nPix := by
  rw [res_recon, reconOf_apply]
  have e0 := Region0.entry_eq (V1 m ρ) c (0 : Fin 2) (by decide)
  have e1 := Region0.entry_eq (V1 m ρ) c (1 : Fin 2) (by decide)
  have v0 : V1 m ρ c main_v0 = shapeCast S393216x128 (m ((c.tc : Thread nD τ).loc main_arg0)) shapeCasts_S1024x3x128x128_S393216x128 :=
    W1_v0 m ρ c
  have v1 : V1 m ρ c main_v1 = shapeCast S393216x128 (m ((c.tc : Thread nD τ).loc main_arg1)) shapeCasts_S1024x3x128x128_S393216x128 :=
    W1_v1 m ρ c
  rw [v0, v1] at e0 e1
  have t := Cert.BceSum.bce_total (m ((c.tc : Thread nD τ).loc main_arg0)) (m ((c.tc : Thread nD τ).loc main_arg1))
    shapeCasts_S1024x3x128x128_S393216x128
  refine congrArg (fun s : EReal => Ideal.div (-s) nPix) ?_
  refine Eq.trans ?_ t
  refine congrArg₂ (fun a b : EReal => a + b) (e0.trans ?_) (e1.trans ?_)
  · exact (Finset.sum_congr rfl fun s _ => congrArg _ (by show 24 * 0 + s = s; omega) :
      (∑ s ∈ Finset.range 24, Cert.BceSum.blockSum _ _ (24 * (0 : Fin 2).val + s) : EReal)
        = ∑ s ∈ Finset.range 24, Cert.BceSum.blockSum _ _ s)
  · exact (Finset.sum_congr rfl fun s _ => congrArg _ (by show 24 * 1 + s = 24 + s; omega) :
      (∑ s ∈ Finset.range 24, Cert.BceSum.blockSum _ _ (24 * (1 : Fin 2).val + s) : EReal)
        = ∑ s ∈ Finset.range 24, Cert.BceSum.blockSum _ _ (24 + s))

/-- The KL loss: −½ times the sum of the KL term over rows and lanes, divided by the number of latent entries. -/
theorem kl_value (c : Dev nD) (i : S_.Idx) :
    W5 m ρ c (Proc.devRef .tc main_v13) i
      = kNegHalf * Ideal.div (∑ r : Fin 1024, ∑ l : Fin 128,
          kl (m ((c.tc : Thread nD τ).loc main_arg2) (ix2 r l)) (m ((c.tc : Thread nD τ).loc main_arg3) (ix2 r l))) nLat := by
  rw [res_kl, klOf_apply]
  have a : klArr m ρ c = k1_pay2 (V3 m ρ c main_arg2) (V3 m ρ c main_arg3) := Region1A.arr8 (V3 m ρ) c
  have x2 : V3 m ρ c main_arg2 = m ((c.tc : Thread nD τ).loc main_arg2) := W3_arg2 m ρ c
  have x3 : V3 m ρ c main_arg3 = m ((c.tc : Thread nD τ).loc main_arg3) := W3_arg3 m ρ c
  rw [a, x2, x3, Region1.klsum_eq]

/-- The triplet loss: minus the mean over the rows of the sigmoid of the difference of the two scores. -/
theorem trip_value (c : Dev nD) (i : S_.Idx) :
    W5 m ρ c (Proc.devRef .tc main_v16) i
      = -(Ideal.div (∑ r : Fin 1024, sigmoidDiff
          (dAP (m ((c.tc : Thread nD τ).loc main_arg4)) (m ((c.tc : Thread nD τ).loc main_arg5))
            (m ((c.tc : Thread nD τ).loc main_arg6)) (m ((c.tc : Thread nD τ).loc main_arg7)) r)
          (dAP (m ((c.tc : Thread nD τ).loc main_arg4)) (m ((c.tc : Thread nD τ).loc main_arg5))
            (m ((c.tc : Thread nD τ).loc main_arg8)) (m ((c.tc : Thread nD τ).loc main_arg9)) r)) nRow) := by
  rw [res_trip, tripOf_apply]
  have a := Region1A.arr9 (V3 m ρ) c
  have x4 : V3 m ρ c main_arg4 = m ((c.tc : Thread nD τ).loc main_arg4) := W3_arg4 m ρ c
  have x5 : V3 m ρ c main_arg5 = m ((c.tc : Thread nD τ).loc main_arg5) := W3_arg5 m ρ c
  have x6 : V3 m ρ c main_arg6 = m ((c.tc : Thread nD τ).loc main_arg6) := W3_arg6 m ρ c
  have x7 : V3 m ρ c main_arg7 = m ((c.tc : Thread nD τ).loc main_arg7) := W3_arg7 m ρ c
  have x8 : V3 m ρ c main_arg8 = m ((c.tc : Thread nD τ).loc main_arg8) := W3_arg8 m ρ c
  have x9 : V3 m ρ c main_arg9 = m ((c.tc : Thread nD τ).loc main_arg9) := W3_arg9 m ρ c
  rw [x4, x5, x6, x7, x8, x9] at a
  show -(Ideal.div ((dat1 (V3 m ρ) c).arrAt 9 cfg1.N (ix2 (0 : Fin 1) (0 : Fin 1))) nRow) = _
  rw [a, Region1T.probsum_eq]

/-- The total loss: the three losses with unit weights. -/
theorem total_value (c : Dev nD) :
    W5 m ρ c (Proc.devRef .tc main_v20)
      = totalOf (W5 m ρ c (Proc.devRef .tc main_v9)) (W5 m ρ c (Proc.devRef .tc main_v13))
          (W5 m ρ c (Proc.devRef .tc main_v16)) := by
  rw [res_total, res_recon, res_kl, res_trip]

end Main

end Cert.KernelIdeal.KernelValue

end
-- ==== Proof.RefLosses.lean ====
/-
  The reference program's four results as explicit formulas on the extended reals.

  Each result of the reference is read off the generated per-operation values: a pointwise stage is read at an
  index, a float sum is its initial value (the zero word) plus the sum of its operand, and the two-column softmax
  of the triplet term is read column by column. The formulas are stated against the names of the shared
  specification: `bce`, `kl`, `klDiag`, `negJs`, `dAP` and `softmaxFirst`.
-/
import proofs.«145820_j27006754357707_2_alg».proof.Proof.Gen.ReferenceIdeal.Read
import proofs.«145820_j27006754357707_2_alg».proof.Proof.Spec
import Idealize.ShloMosaic.Lib.ValueIdx
import Idealize.ShloMosaic.Lib.Pipeline.Value
import Idealize.ShloMosaic.PureOps.Ideal.Laws

noncomputable section

open scoped BigOperators

namespace Cert.RefLosses

open Cert.ReferenceIdeal Cert.ReferenceIdeal.Gen Cert.ReferenceIdeal.Read Cert.Spec Idealize.ShloMosaic Idealize.ShloMosaic.ValueIdx

/-- The two input types: a batch of images and a batch of latent rows. -/
abbrev A4 := (⟨S1024x3x128x128, .f32⟩ : BufTy).Contents (Elt Ideal)
abbrev A2 := (⟨S1024x128, .f32⟩ : BufTy).Contents (Elt Ideal)

/-! ## The reconstruction term -/

/-- One pixel of the summand of the reconstruction term is the pixel's log-likelihood. -/
theorem v100_apply (x0 x1 : A4) (j : S1024x3x128x128.Idx) :
    val_main_v100 (F := Ideal) x0 x1 j = bce (x0 j) (x1 j) := by
  rw [val_main_v100_apply, val_main_v94_apply, val_main_v99_apply, val_main_v93_apply, val_main_v96_apply,
    val_main_v98_apply, val_main_v97_apply, val_main_v95_apply, val_main_cst_22_apply]
  simp only [Ideal.addf_def, Ideal.mulf_def, Ideal.subf_def, Ideal.hostNegf_def, Ideal.negf_def,
    Ideal.hostUnary_log_def, Ideal.hostUnary_log1p_def, Ideal.ofBits_def]
  rfl

/-- The reconstruction term: minus the mean of the pixels' log-likelihoods. -/
theorem recon_eq (x0 x1 : A4) :
    val_main_v103 (F := Ideal) x0 x1
      = fun _ => -(Ideal.div (∑ i : S1024x3x128x128.Idx, bce (x0 i) (x1 i)) nPix) := by
  funext i
  rw [val_main_v103_apply, val_main_v102_apply, val_main_v101_apply, val_main_cst_24_apply, val_main_cst_23_apply]
  simp only [Ideal.hostNegf_def, Ideal.negf_def, Ideal.hostDivf_def, Ideal.ofBits_def]
  rw [Ideal.ofBits_zero_f32, zero_add]
  exact congrArg (fun s => -(Ideal.div s nPix)) (Finset.sum_congr rfl fun j _ => v100_apply x0 x1 j)

/-! ## The Gaussian KL term -/

/-- One latent entry of the summand of the KL term. -/
theorem v109_apply (x2 x3 : A2) (j : S1024x128.Idx) :
    val_main_v109 (F := Ideal) x2 x3 j = kl (x2 j) (x3 j) := by
  rw [val_main_v109_apply, val_main_v107_apply, val_main_v108_apply, val_main_v105_apply, val_main_v106_apply,
    val_main_v104_apply, val_main_cst_25_apply]
  simp only [Ideal.addf_def, Ideal.mulf_def, Ideal.subf_def, Ideal.hostUnary_exp_def, Ideal.ofBits_def]
  rfl

/-- The KL term: minus one half of the mean of the entries' terms, the sum taken row by row. -/
theorem kl_eq (x2 x3 : A2) :
    val_main_v112 (F := Ideal) x2 x3
      = fun _ => kNegHalf * Ideal.div (∑ r : Fin 1024, ∑ l : Fin 128, kl (x2 (ix2 r l)) (x3 (ix2 r l))) nLat := by
  funext i
  rw [val_main_v112_apply, val_main_v111_apply, val_main_v110_apply, val_main_cst_28_apply, val_main_cst_27_apply,
    val_main_cst_26_apply]
  simp only [Ideal.mulf_def, Ideal.hostDivf_def, Ideal.ofBits_def]
  rw [Ideal.ofBits_zero_f32, zero_add, sum_idx2]
  exact congrArg (fun s => kNegHalf * Ideal.div s nLat)
    (Finset.sum_congr rfl fun r _ => Finset.sum_congr rfl fun l _ => v109_apply x2 x3 (ix2 r l))

/-! ## The triplet term

The anchor–positive and anchor–negative scores are read first, coordinate by coordinate and then row by row; the
two-column softmax is then read at each of its two columns. -/

/-- One coordinate of the anchor's term against the mixture of anchor and positive. -/
theorem v17_apply (x4 x5 x6 x7 : A2) (j : S1024x128.Idx) :
    val_main_v17 (F := Ideal) x4 x5 x6 x7 j = klDiag (x4 j) (x5 j) (x4 j) (x5 j) (x6 j) (x7 j) := by
  simp only [val_main_v17_apply, val_main_v13_apply, val_main_v16_apply, val_main_v11_apply, val_main_v12_apply, val_main_v15_apply, val_main_v14_apply, val_main_v9_apply, val_main_v10_apply, val_main_v8_apply, val_main_v7_apply, val_main_v6_apply, val_main_v5_apply, val_main_v4_apply, val_main_v3_apply, val_main_v2_apply, val_main_v0_apply, val_main_v1_apply, val_main_cst_apply, val_main_cst_0_apply, val_main_cst_1_apply,
    Ideal.addf_def, Ideal.subf_def, Ideal.mulf_def, Ideal.hostDivf_def, Ideal.hostUnary_exp_def, Ideal.hostUnary_log_def, Ideal.ofBits_def]
  rfl

/-- One coordinate of the positive's term against the mixture of anchor and positive. -/
theorem v29_apply (x4 x5 x6 x7 : A2) (j : S1024x128.Idx) :
    val_main_v29 (F := Ideal) x4 x5 x6 x7 j = klDiag (x6 j) (x7 j) (x4 j) (x5 j) (x6 j) (x7 j) := by
  simp only [val_main_v29_apply, val_main_v25_apply, val_main_v28_apply, val_main_v23_apply, val_main_v24_apply, val_main_v27_apply, val_main_v26_apply, val_main_v21_apply, val_main_v22_apply, val_main_v8_apply, val_main_v7_apply, val_main_v6_apply, val_main_v5_apply, val_main_v4_apply, val_main_v3_apply, val_main_v2_apply, val_main_v0_apply, val_main_v1_apply, val_main_cst_apply, val_main_cst_0_apply, val_main_cst_4_apply,
    Ideal.addf_def, Ideal.subf_def, Ideal.mulf_def, Ideal.hostDivf_def, Ideal.hostUnary_exp_def, Ideal.hostUnary_log_def, Ideal.ofBits_def]
  rfl

/-- One coordinate of the anchor's term against the mixture of anchor and negative. -/
theorem v54_apply (x4 x5 x8 x9 : A2) (j : S1024x128.Idx) :
    val_main_v54 (F := Ideal) x4 x5 x8 x9 j = klDiag (x4 j) (x5 j) (x4 j) (x5 j) (x8 j) (x9 j) := by
  simp only [val_main_v54_apply, val_main_v50_apply, val_main_v53_apply, val_main_v48_apply, val_main_v49_apply, val_main_v52_apply, val_main_v51_apply, val_main_v46_apply, val_main_v47_apply, val_main_v45_apply, val_main_v44_apply, val_main_v43_apply, val_main_v42_apply, val_main_v41_apply, val_main_v40_apply, val_main_v39_apply, val_main_v37_apply, val_main_v38_apply, val_main_cst_8_apply, val_main_cst_9_apply, val_main_cst_10_apply,
    Ideal.addf_def, Ideal.subf_def, Ideal.mulf_def, Ideal.hostDivf_def, Ideal.hostUnary_exp_def, Ideal.hostUnary_log_def, Ideal.ofBits_def]
  rfl

/-- One coordinate of the negative's term against the mixture of anchor and negative. -/
theorem v66_apply (x4 x5 x8 x9 : A2) (j : S1024x128.Idx) :
    val_main_v66 (F := Ideal) x4 x5 x8 x9 j = klDiag (x8 j) (x9 j) (x4 j) (x5 j) (x8 j) (x9 j) := by
  simp only [val_main_v66_apply, val_main_v62_apply, val_main_v65_apply, val_main_v60_apply, val_main_v61_apply, val_main_v64_apply, val_main_v63_apply, val_main_v58_apply, val_main_v59_apply, val_main_v45_apply, val_main_v44_apply, val_main_v43_apply, val_main_v42_apply, val_main_v41_apply, val_main_v40_apply, val_main_v39_apply, val_main_v37_apply, val_main_v38_apply, val_main_cst_8_apply, val_main_cst_9_apply, val_main_cst_13_apply,
    Ideal.addf_def, Ideal.subf_def, Ideal.mulf_def, Ideal.hostDivf_def, Ideal.hostUnary_exp_def, Ideal.hostUnary_log_def, Ideal.ofBits_def]
  rfl

/-- The index of row `r` and coordinate `k`, as the row sums spell it. -/
theorem idx_rows (r : Fin 1024) (k : Fin 128) : idx_main_v18 (ix1 r) k = ix2 r k :=
  funext fun a => Fin.ext (by match a with | ⟨0, _⟩ => rfl | ⟨1, _⟩ => rfl)

/-- The anchor–positive score of row `r`. -/
theorem v36_apply (x4 x5 x6 x7 : A2) (r : Fin 1024) :
    val_main_v36 (F := Ideal) x4 x5 x6 x7 (ix1 r) = dAP x4 x5 x6 x7 r := by
  rw [val_main_v36_apply, val_main_v35_apply, val_main_v33_apply, val_main_v20_apply, val_main_v32_apply, val_main_v18_apply, val_main_v30_apply, val_main_v34_apply, val_main_v19_apply, val_main_v31_apply, val_main_cst_7_apply, val_main_cst_3_apply, val_main_cst_6_apply, val_main_cst_2_apply, val_main_cst_5_apply]
  simp only [Ideal.hostNegf_def, Ideal.negf_def, Ideal.mulf_def, Ideal.addf_def, Ideal.ofBits_def]
  rw [Ideal.ofBits_zero_f32, zero_add, zero_add]
  have e1 : ∀ k : Fin 128, val_main_v17 (F := Ideal) x4 x5 x6 x7 (idx_main_v18 (ix1 r) k)
      = klDiag (x4 (ix2 r k)) (x5 (ix2 r k)) (x4 (ix2 r k)) (x5 (ix2 r k)) (x6 (ix2 r k)) (x7 (ix2 r k)) :=
    fun k => (congrArg _ (idx_rows r k)).trans (v17_apply x4 x5 x6 x7 (ix2 r k))
  have e2 : ∀ k : Fin 128, val_main_v29 (F := Ideal) x4 x5 x6 x7 (idx_main_v30 (ix1 r) k)
      = klDiag (x6 (ix2 r k)) (x7 (ix2 r k)) (x4 (ix2 r k)) (x5 (ix2 r k)) (x6 (ix2 r k)) (x7 (ix2 r k)) :=
    fun k => (congrArg _ (idx_rows r k)).trans (v29_apply x4 x5 x6 x7 (ix2 r k))
  rw [Finset.sum_congr rfl fun k _ => e1 k, Finset.sum_congr rfl fun k _ => e2 k]
  rfl

/-- The anchor–negative score of row `r`. -/
theorem v73_apply (x4 x5 x8 x9 : A2) (r : Fin 1024) :
    val_main_v73 (F := Ideal) x4 x5 x8 x9 (ix1 r) = dAP x4 x5 x8 x9 r := by
  rw [val_main_v73_apply, val_main_v72_apply, val_main_v70_apply, val_main_v57_apply, val_main_v69_apply, val_main_v55_apply, val_main_v67_apply, val_main_v71_apply, val_main_v56_apply, val_main_v68_apply, val_main_cst_16_apply, val_main_cst_12_apply, val_main_cst_15_apply, val_main_cst_11_apply, val_main_cst_14_apply]
  simp only [Ideal.hostNegf_def, Ideal.negf_def, Ideal.mulf_def, Ideal.addf_def, Ideal.ofBits_def]
  rw [Ideal.ofBits_zero_f32, zero_add, zero_add]
  have e1 : ∀ k : Fin 128, val_main_v54 (F := Ideal) x4 x5 x8 x9 (idx_main_v55 (ix1 r) k)
      = klDiag (x4 (ix2 r k)) (x5 (ix2 r k)) (x4 (ix2 r k)) (x5 (ix2 r k)) (x8 (ix2 r k)) (x9 (ix2 r k)) :=
    fun k => (congrArg _ (idx_rows r k)).trans (v54_apply x4 x5 x8 x9 (ix2 r k))
  have e2 : ∀ k : Fin 128, val_main_v66 (F := Ideal) x4 x5 x8 x9 (idx_main_v67 (ix1 r) k)
      = klDiag (x8 (ix2 r k)) (x9 (ix2 r k)) (x4 (ix2 r k)) (x5 (ix2 r k)) (x8 (ix2 r k)) (x9 (ix2 r k)) :=
    fun k => (congrArg _ (idx_rows r k)).trans (v66_apply x4 x5 x8 x9 (ix2 r k))
  rw [Finset.sum_congr rfl fun k _ => e1 k, Finset.sum_congr rfl fun k _ => e2 k]
  rfl

/-- Column 0 of the two stacked scores is the anchor–positive score. -/
theorem v76_apply_zero (x4 x5 x6 x7 x8 x9 : A2) (r : Fin 1024) :
    val_main_v76 (F := Ideal) x4 x5 x6 x7 x8 x9 (ix2 r (0 : Fin 2)) = dAP x4 x5 x6 x7 r := by
  unfold val_main_v76
  refine (concatenate_pair_apply_left 1 _ _ concatenates_S1024x1_S1024x1_S1024x2_d1 (ix2 r (0 : Fin 2)) rfl
    (ix2 r (0 : Fin 1)) (fun b => by match b with | ⟨0, _⟩ => rfl | ⟨1, _⟩ => rfl)).trans ?_
  rw [val_main_v74_apply]
  refine (congrArg _ ?_).trans (v36_apply x4 x5 x6 x7 r)
  exact funext fun a => Fin.ext (by match a with | ⟨0, _⟩ => rfl)

/-- Column 1 of the two stacked scores is the anchor–negative score. -/
theorem v76_apply_one (x4 x5 x6 x7 x8 x9 : A2) (r : Fin 1024) :
    val_main_v76 (F := Ideal) x4 x5 x6 x7 x8 x9 (ix2 r (1 : Fin 2)) = dAP x4 x5 x8 x9 r := by
  unfold val_main_v76
  refine (concatenate_pair_apply_right 1 _ _ concatenates_S1024x1_S1024x1_S1024x2_d1 (ix2 r (1 : Fin 2)) rfl rfl
    (ix2 r (0 : Fin 1)) (fun b hb => by
      match b with
      | ⟨0, _⟩ => rfl
      | ⟨1, _⟩ => exact absurd rfl hb) rfl).trans ?_
  rw [val_main_v75_apply]
  refine (congrArg _ ?_).trans (v73_apply x4 x5 x8 x9 r)
  exact funext fun a => Fin.ext (by match a with | ⟨0, _⟩ => rfl)

/-- A fold of a commutative, associative operation over two values. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- The word of −∞ is the bottom of the extended reals. -/
theorem negInfWord_eq_bot : Ideal.ofBits .f32 0xFF800000#32 = (⊥ : EReal) := by
  simp [Ideal.ofBits, Ideal.ieee]

/-- Row `r` of the two-column array with the column `k` put back. -/
theorem lift_cols2 (h : S1024x2.Reduces [(1 : Fin 2)] S1024) (r : Fin 1024) (k : Fin 2) :
    h.lift (ix1 r) k = ix2 r k := by
  funext c
  refine Fin.ext ?_
  match c with
  | ⟨0, _⟩ => rfl
  | ⟨1, _⟩ => rfl

/-- From −∞ the maximum-fold over the two columns of row `r` is the maximum of the row's two entries. -/
theorem rowmax (x : S1024x2.Idx → EReal) (r : Fin 1024) :
    Host.reduce (FloatOps.maximumf (F := Ideal) (φ := .f32)) x (constant (F := Ideal) S_ .f32 0xFF800000#32)
        reducesTo_S1024x2_S1024_d1 h_S_ (ix1 r)
      = max (x (ix2 r 0)) (x (ix2 r 1)) := by
  have h : S1024x2.Reduces [(1 : Fin 2)] S1024 := by decide
  rw [Host.reduce_eq_fold_single FloatOps.maximumf _ _ reducesTo_S1024x2_S1024_d1 h h_S_ (ix1 r)]
  refine (fold_univ_fin2 FloatOps.maximumf _ _).trans ?_
  show max (x (h.lift (ix1 r) (0 : Fin 2)))
      (max (x (h.lift (ix1 r) (1 : Fin 2))) (Ideal.ofBits .f32 0xFF800000#32)) = _
  rw [lift_cols2, lift_cols2, negInfWord_eq_bot, max_bot_right]

/-- The row maximum the softmax subtracts: the maximum of the two scores. -/
theorem v79_apply (x4 x5 x6 x7 x8 x9 : A2) (r : Fin 1024) :
    val_main_v79 (F := Ideal) x4 x5 x6 x7 x8 x9 (ix1 r) = max (dAP x4 x5 x6 x7 r) (dAP x4 x5 x8 x9 r) := by
  rw [val_main_v79_apply, val_main_v78_apply, val_main_cst_18_apply]
  simp only [Ideal.maximumf_def, Ideal.ofBits_def]
  rw [negInfWord_eq_bot, max_bot_left]
  unfold val_main_v77
  refine (rowmax _ r).trans ?_
  rw [v76_apply_zero, v76_apply_one]

/-- The row index behind an entry of the broadcast row maximum. -/
theorem idx_rowmax (r : Fin 1024) (c : Fin 2) : idx_main_v80 (idx_main_v81 (ix2 r c)) = ix1 r :=
  funext fun a => Fin.ext (by match a with | ⟨0, _⟩ => rfl)

/-- The softmax's numerator at column 0 of row `r`. -/
theorem v83_apply_zero (x4 x5 x6 x7 x8 x9 : A2) (r : Fin 1024) :
    val_main_v83 (F := Ideal) x4 x5 x6 x7 x8 x9 (ix2 r (0 : Fin 2))
      = Ideal.exp (dAP x4 x5 x6 x7 r - max (dAP x4 x5 x6 x7 r) (dAP x4 x5 x8 x9 r)) := by
  rw [val_main_v83_apply, val_main_v82_apply, val_main_v81_apply, val_main_v80_apply]
  simp only [Ideal.hostUnary_exp_def, Ideal.subf_def]
  rw [v76_apply_zero]
  exact congrArg (fun t => Ideal.exp (dAP x4 x5 x6 x7 r - t))
    ((congrArg _ (idx_rowmax r 0)).trans (v79_apply x4 x5 x6 x7 x8 x9 r))

/-- The softmax's numerator at column 1 of row `r`. -/
theorem v83_apply_one (x4 x5 x6 x7 x8 x9 : A2) (r : Fin 1024) :
    val_main_v83 (F := Ideal) x4 x5 x6 x7 x8 x9 (ix2 r (1 : Fin 2))
      = Ideal.exp (dAP x4 x5 x8 x9 r - max (dAP x4 x5 x6 x7 r) (dAP x4 x5 x8 x9 r)) := by
  rw [val_main_v83_apply, val_main_v82_apply, val_main_v81_apply, val_main_v80_apply]
  simp only [Ideal.hostUnary_exp_def, Ideal.subf_def]
  rw [v76_apply_one]
  exact congrArg (fun t => Ideal.exp (dAP x4 x5 x8 x9 r - t))
    ((congrArg _ (idx_rowmax r 1)).trans (v79_apply x4 x5 x6 x7 x8 x9 r))

/-- The softmax's denominator at row `r`: the sum of the two numerators. -/
theorem v84_apply (x4 x5 x6 x7 x8 x9 : A2) (r : Fin 1024) :
    val_main_v84 (F := Ideal) x4 x5 x6 x7 x8 x9 (ix1 r)
      = Ideal.exp (dAP x4 x5 x6 x7 r - max (dAP x4 x5 x6 x7 r) (dAP x4 x5 x8 x9 r))
        + Ideal.exp (dAP x4 x5 x8 x9 r - max (dAP x4 x5 x6 x7 r) (dAP x4 x5 x8 x9 r)) := by
  rw [val_main_v84_apply, val_main_cst_19_apply, Fin.sum_univ_two]
  simp only [Ideal.ofBits_def]
  rw [Ideal.ofBits_zero_f32, zero_add]
  have i0 : idx_main_v84 (ix1 r) (0 : Fin 2) = ix2 r (0 : Fin 2) :=
    funext fun a => Fin.ext (by match a with | ⟨0, _⟩ => rfl | ⟨1, _⟩ => rfl)
  have i1 : idx_main_v84 (ix1 r) (1 : Fin 2) = ix2 r (1 : Fin 2) :=
    funext fun a => Fin.ext (by match a with | ⟨0, _⟩ => rfl | ⟨1, _⟩ => rfl)
  exact congrArg₂ (· + ·) ((congrArg _ i0).trans (v83_apply_zero x4 x5 x6 x7 x8 x9 r))
    ((congrArg _ i1).trans (v83_apply_one x4 x5 x6 x7 x8 x9 r))

/-- Column 0 of the softmax at row `r`: the first of the two weights. -/
theorem v89_apply (x4 x5 x6 x7 x8 x9 : A2) (r : Fin 1024) :
    val_main_v89 (F := Ideal) x4 x5 x6 x7 x8 x9 (ix1 r) = softmaxFirst (dAP x4 x5 x6 x7 r) (dAP x4 x5 x8 x9 r) := by
  have i : idx_main_v88 (idx_main_v89 (ix1 r)) = ix2 r (0 : Fin 2) :=
    funext fun a => Fin.ext (by match a with | ⟨0, _⟩ => exact Nat.div_one _ | ⟨1, _⟩ => rfl)
  have i2 : idx_main_v85 (idx_main_v86 (ix2 r (0 : Fin 2))) = ix1 r :=
    funext fun a => Fin.ext (by match a with | ⟨0, _⟩ => rfl)
  rw [val_main_v89_apply, val_main_v88_apply]
  refine (congrArg _ i).trans ?_
  rw [val_main_v87_apply, val_main_v86_apply, val_main_v85_apply]
  simp only [Ideal.hostDivf_def]
  rw [v83_apply_zero]
  exact congrArg (fun t => Ideal.div _ t) ((congrArg _ i2).trans (v84_apply x4 x5 x6 x7 x8 x9 r))

/-- A rank-1 index is its coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The triplet term: minus the mean over the rows of the first softmax weight of the two scores. -/
theorem triplet_eq (x4 x5 x6 x7 x8 x9 : A2) :
    val_main_v92 (F := Ideal) x4 x5 x6 x7 x8 x9
      = fun _ => -(Ideal.div (∑ r : Fin 1024, softmaxFirst (dAP x4 x5 x6 x7 r) (dAP x4 x5 x8 x9 r)) nRow) := by
  funext i
  rw [val_main_v92_apply, val_main_v91_apply, val_main_v90_apply, val_main_cst_21_apply, val_main_cst_20_apply]
  simp only [Ideal.hostNegf_def, Ideal.negf_def, Ideal.hostDivf_def, Ideal.ofBits_def]
  rw [Ideal.ofBits_zero_f32, zero_add, sum_idx1]
  exact congrArg (fun s => -(Ideal.div s nRow)) (Finset.sum_congr rfl fun r _ => v89_apply x4 x5 x6 x7 x8 x9 r)

/-! ## The total -/

/-- The total loss is the reconstruction term plus the two weighted terms, the weights being the word of one. -/
theorem final_eq (x0 x1 : A4) (x2 x3 x4 x5 x6 x7 x8 x9 : A2) (i : S_.Idx) :
    val_main_v116 (F := Ideal) x0 x1 x2 x3 x4 x5 x6 x7 x8 x9 i
      = (val_main_v103 (F := Ideal) x0 x1 i + kOne * val_main_v112 (F := Ideal) x2 x3 i)
        + kOne * val_main_v92 (F := Ideal) x4 x5 x6 x7 x8 x9 i := by
  rw [val_main_v116_apply, val_main_v114_apply, val_main_v115_apply, val_main_v113_apply, val_main_cst_29_apply,
    val_main_cst_30_apply]
  simp only [Ideal.addf_def, Ideal.mulf_def, Ideal.ofBits_def]

end Cert.RefLosses

end
-- ==== Proof.LibMeanAggregate.lean ====
/-
  Extended-real algebra for mean aggregation.

  On the extended reals ℝ ∪ {-∞, +∞} the ring laws (distributivity, associativity of sums of
  products, commuting a scaling past a sum) fail at the infinities. They all hold on the image of
  ℝ. This file records that image as a predicate, its closure under the operations a mean
  aggregation uses (sum, product, maximum, quotient by a nonzero real), and the two identities
  that let a row scaling  x ↦ x / d  move across a matrix product when every entry is real.
-/
import Idealize.ShloMosaic.PureOps.Ideal
import Mathlib.Tactic.FieldSimp
import Mathlib.Tactic.Ring

noncomputable section

namespace Cert.Lib.MeanAggregate

open Idealize.ShloMosaic
open scoped BigOperators

/-- An extended real is *real* when it is the image of a real number: neither +∞ nor -∞. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion ℝ → EReal commutes with a finite sum over any finite set of indices. -/
theorem finset_sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion ℝ → EReal commutes with a sum over a finite type. -/
theorem sum_coe {ι : Type} [Fintype ι] (f : ι → ℝ) :
    ∑ i, ((f i : ℝ) : EReal) = ((∑ i, f i : ℝ) : EReal) :=
  finset_sum_coe Finset.univ f

/-- A sum of reals over a finite set of indices is real. -/
theorem IsReal.finset_sum {ι : Type} (s : Finset ι) {f : ι → EReal} (h : ∀ i, IsReal (f i)) :
    IsReal (∑ i ∈ s, f i) := by
  choose g hg using h
  have hf : f = fun i => ((g i : ℝ) : EReal) := funext hg
  rw [hf, finset_sum_coe]
  exact ⟨_, rfl⟩

/-- A sum of reals over a finite type is real. -/
theorem IsReal.sum {ι : Type} [Fintype ι] {f : ι → EReal} (h : ∀ i, IsReal (f i)) :
    IsReal (∑ i, f i) :=
  IsReal.finset_sum Finset.univ h

/-- The maximum of two images of reals is the image of the maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum (in the order of the extended reals) of two reals is real. -/
theorem IsReal.max {x y : EReal} (hx : IsReal x) (hy : IsReal y) : IsReal (max x y) := by
  obtain ⟨a, rfl⟩ := hx
  obtain ⟨b, rfl⟩ := hy
  exact ⟨_, max_coe a b⟩

/-- The exact float maximum of two reals is real: at the extended reals it is the order's max. -/
theorem IsReal.maximumf {φ : FTy} {x y : Ideal φ} (hx : IsReal x) (hy : IsReal y) :
    IsReal (FloatOps.maximumf x y) :=
  IsReal.max hx hy

/-- The quotient of a real by a nonzero real is real: it is the product with the reciprocal. -/
theorem IsReal.div {x d : EReal} (hx : IsReal x) (hd : IsReal d) (h0 : d ≠ 0) :
    IsReal (Ideal.div x d) := by
  obtain ⟨a, rfl⟩ := hx
  obtain ⟨b, rfl⟩ := hd
  have hb : b ≠ 0 := by
    rintro rfl
    exact h0 rfl
  rw [Ideal.div_coe hb, ← EReal.coe_mul]
  exact ⟨_, rfl⟩

/-- The maximum of anything with a positive real is positive. -/
theorem max_coe_pos (s : EReal) {e : ℝ} (he : 0 < e) : 0 < max s (e : EReal) :=
  lt_max_of_lt_right (EReal.coe_pos.mpr he)

/-- A degree clamped from below: for a real s and a positive real e, max s e is real and nonzero
    (it is at least e, which is positive). -/
theorem deg_ne_zero {s : EReal} (hs : IsReal s) {e : ℝ} (he : 0 < e) :
    IsReal (max s (e : EReal)) ∧ max s (e : EReal) ≠ 0 :=
  ⟨hs.max (isReal_coe e), ne_of_gt (max_coe_pos s he)⟩

/-- The same with the arguments of the maximum exchanged: max e s is real and nonzero. -/
theorem deg_ne_zero' {s : EReal} (hs : IsReal s) {e : ℝ} (he : 0 < e) :
    IsReal (max (e : EReal) s) ∧ max (e : EReal) s ≠ 0 := by
  rw [max_comm]
  exact deg_ne_zero hs he

/-- The clamped degree through the exact float maximum: it is the order's max, so for a real s and
    a positive real e, maximumf s e is real and nonzero. -/
theorem deg_ne_zero_maximumf {φ : FTy} {s : Ideal φ} (hs : IsReal s) {e : ℝ} (he : 0 < e) :
    IsReal (FloatOps.maximumf s ((e : EReal) : Ideal φ)) ∧
      FloatOps.maximumf s ((e : EReal) : Ideal φ) ≠ 0 :=
  deg_ne_zero hs he

/-- The same with the arguments of the float maximum exchanged. -/
theorem deg_ne_zero_maximumf' {φ : FTy} {s : Ideal φ} (hs : IsReal s) {e : ℝ} (he : 0 < e) :
    IsReal (FloatOps.maximumf ((e : EReal) : Ideal φ) s) ∧
      FloatOps.maximumf ((e : EReal) : Ideal φ) s ≠ 0 :=
  deg_ne_zero' hs he

/-- Multiplying by the reciprocal of a nonzero real is dividing by it: x * (1 / d) = x / d. -/
theorem mul_one_div_eq_div {x d : EReal} (_hx : IsReal x) (hd : IsReal d) (h0 : d ≠ 0) :
    x * Ideal.div 1 d = Ideal.div x d := by
  obtain ⟨b, rfl⟩ := hd
  have hb : b ≠ 0 := by
    rintro rfl
    exact h0 rfl
  rw [Ideal.div_coe hb, Ideal.div_coe hb, one_mul]

/-- A row scaling commutes with a right multiplication, one output entry at a time. For a row a of
    weights, a matrix h, a matrix W and a scalar d, all real, with d ≠ 0:
      ∑ₖ ((∑ⱼ aⱼ hⱼₖ) / d) Wₖ = (∑ⱼ aⱼ ∑ₖ hⱼₖ Wₖ) · (1 / d),
    that is ((a·h)/d)·W = (a·(h·W))·(1/d). Both sides are the image of the same real number:
    associativity and distributivity in ℝ. -/
theorem assoc_scale {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, Ideal.div (∑ j, a j * h j k) d * W k c
      = (∑ j, a j * ∑ k, h j k * W k c) * Ideal.div 1 d := by
  choose a' ha' using ha
  choose h' hh' using hh
  choose W' hW' using hW
  obtain ⟨b, rfl⟩ := hd
  have hb : b ≠ 0 := by
    rintro rfl
    exact h0 rfl
  obtain rfl : a = fun j => ((a' j : ℝ) : EReal) := funext ha'
  obtain rfl : h = fun j k => ((h' j k : ℝ) : EReal) := funext fun j => funext (hh' j)
  obtain rfl : W = fun k c => ((W' k c : ℝ) : EReal) := funext fun k => funext (hW' k)
  simp only [Ideal.div_coe hb, one_mul, ← EReal.coe_mul, sum_coe]
  refine congrArg _ ?_
  simp only [Finset.sum_mul, Finset.mul_sum]
  rw [Finset.sum_comm]
  refine Finset.sum_congr rfl fun j _ => Finset.sum_congr rfl fun k _ => ?_
  ring

/-- The scaling written as a product with the reciprocal, before the right multiplication:
      ∑ₖ ((∑ⱼ aⱼ hⱼₖ) · (1 / d)) Wₖ = ∑ₖ ((∑ⱼ aⱼ hⱼₖ) / d) Wₖ
    for real a, h, d with d ≠ 0 (W is arbitrary). -/
theorem scale_mul_eq_div {ι κ γ : Type} [Fintype ι] [Fintype κ] [Fintype γ]
    {a : ι → EReal} {h : ι → κ → EReal} (W : κ → γ → EReal) {d : EReal}
    (ha : ∀ j, IsReal (a j)) (hh : ∀ j k, IsReal (h j k))
    (hd : IsReal d) (h0 : d ≠ 0) (c : γ) :
    ∑ k, ((∑ j, a j * h j k) * Ideal.div 1 d) * W k c
      = ∑ k, Ideal.div (∑ j, a j * h j k) d * W k c :=
  Finset.sum_congr rfl fun k _ => by
    rw [mul_one_div_eq_div (IsReal.sum fun j => (ha j).mul (hh j k)) hd h0]

/-- Both forms at once: scaling by the reciprocal before the right multiplication equals scaling
    by it after,  ((a·h)·(1/d))·W = (a·(h·W))·(1/d), when every entry is real and d ≠ 0. -/
theorem assoc_scale_mul {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, ((∑ j, a j * h j k) * Ideal.div 1 d) * W k c
      = (∑ j, a j * ∑ k, h j k * W k c) * Ideal.div 1 d :=
  (scale_mul_eq_div W ha hh hd h0 c).trans (assoc_scale ha hh hW hd h0 c)

end Cert.Lib.MeanAggregate
-- ==== Proof.LibSoftmaxReal.lean ====
/-
  Extended-real facts for a softmax: realness and positivity of its pieces, and the law that lets the
  normalisation move across a contraction.

  For a row of real logits a, the row maximum M (a fold of max from −∞ over a nonempty index set) is real; each
  numerator exp (a − M) is a positive real; and for real f, p and a real nonzero l,
      ∑ᵢ (pᵢ / l) · fᵢ = (∑ᵢ fᵢ · pᵢ) / l,
  which fails at the infinities. Built on the predicate IsReal of the mean-aggregation algebra.
-/
import proofs.«145820_j27006754357707_2_alg».proof.Proof.LibMeanAggregate
import Idealize.ShloMosaic.PureOps.Ideal
import Idealize.ShloMosaic.PureOps.ShapeOps
import Mathlib.Tactic.Ring

noncomputable section

namespace Cert.Lib.SoftmaxReal

open Idealize.ShloMosaic Cert.Lib.MeanAggregate
open scoped BigOperators

/-- Normalising before a contraction equals normalising after it, when every entry is real and
    the normaliser is a nonzero real:  ∑ᵢ (pᵢ / l) · fᵢ = (∑ᵢ fᵢ · pᵢ) / l. -/
theorem sum_div_mul {ι : Type} [Fintype ι] {f p : ι → EReal} {l : EReal}
    (hf : ∀ i, IsReal (f i)) (hp : ∀ i, IsReal (p i)) (hl : IsReal l) (h0 : l ≠ 0) :
    ∑ i, Ideal.div (p i) l * f i = Ideal.div (∑ i, f i * p i) l := by
  choose f' hf' using hf
  choose p' hp' using hp
  obtain ⟨b, rfl⟩ := hl
  have hb : b ≠ 0 := by
    rintro rfl
    exact h0 rfl
  obtain rfl : f = fun i => ((f' i : ℝ) : EReal) := funext hf'
  obtain rfl : p = fun i => ((p' i : ℝ) : EReal) := funext hp'
  simp only [Ideal.div_coe hb, ← EReal.coe_mul, sum_coe]
  refine congrArg _ ?_
  rw [Finset.sum_mul]
  refine Finset.sum_congr rfl fun i _ => ?_
  ring

/-- The maximum, from −∞, of a nonempty finite family of reals is real: it is at least one of
    them, so it is not −∞, and it is below +∞ because −∞ and every member are. -/
theorem isReal_fold_max {ι : Type} [Fintype ι] [Nonempty ι] (g : ι → EReal) (hg : ∀ k, IsReal (g k)) :
    IsReal ((Finset.univ : Finset ι).fold max (⊥ : EReal) g) := by
  obtain ⟨k0⟩ := (inferInstance : Nonempty ι)
  have hlo : g k0 ≤ (Finset.univ : Finset ι).fold max (⊥ : EReal) g :=
    (Finset.le_fold_max _).2 (Or.inr ⟨k0, Finset.mem_univ _, le_rfl⟩)
  have hhi : (Finset.univ : Finset ι).fold max (⊥ : EReal) g < ⊤ :=
    (Finset.fold_max_lt _).2 ⟨bot_lt_top, fun k _ => by
      obtain ⟨r, hr⟩ := hg k
      rw [hr]
      exact EReal.coe_lt_top r⟩
  obtain ⟨r0, hr0⟩ := hg k0
  rw [hr0] at hlo
  generalize (Finset.univ : Finset ι).fold max (⊥ : EReal) g = m at hlo hhi
  induction m using EReal.rec with
  | bot => exact absurd hlo (not_le.2 (EReal.bot_lt_coe r0))
  | coe r => exact ⟨r, rfl⟩
  | top => exact absurd hhi (lt_irrefl _)

/-- The exponential of a difference of two reals is a positive real. -/
theorem exp_sub_pos {a m : EReal} (ha : IsReal a) (hm : IsReal m) :
    ∃ r : ℝ, 0 < r ∧ Ideal.exp (a - m) = (r : EReal) := by
  obtain ⟨a', rfl⟩ := ha
  obtain ⟨m', rfl⟩ := hm
  refine ⟨Real.exp (a' - m'), Real.exp_pos _, ?_⟩
  rw [← EReal.coe_sub, Ideal.exp_coe]

/-- The bit pattern 0xFF800000 denotes −∞. -/
theorem ofBits_neg_inf : Ideal.ofBits .f32 0xFF800000#32 = (⊥ : EReal) := by
  simp [Ideal.ofBits, Ideal.ieee]

/-- A broadcast of an array of reals is an array of reals: each entry is an entry of the operand. -/
theorem isReal_broadcastInDim {s t : Shape} (dims : Fin s.rank → Fin t.rank) (h : s.BroadcastsInDim t dims)
    (x : s.Idx → EReal) (hx : ∀ k, IsReal (x k)) (j : t.Idx) : IsReal (broadcastInDim t dims h x j) := by
  unfold broadcastInDim
  exact hx _

end Cert.Lib.SoftmaxReal

end
-- ==== Proof.TripletMath.lean ====
/-
  The extended-real mathematics that joins the two programs' triplet terms.

  Each program computes, per row, two scores a and b (minus a Jensen–Shannon divergence each) and
  then the first of two softmax weights: one as the sigmoid 1 / (1 + e^{-(a - b)}), the other as
  e^{a - M} / (e^{a - M} + e^{b - M}) with M = max a b. On the extended reals the two expressions
  agree when a and b are real, and a score is real when the six arrays it is computed from are.
  This module proves both facts, the values of the constants involved, and that a negation moves
  across a division by the (real, nonzero) number of pixels at every extended real.
-/
import proofs.«145820_j27006754357707_2_alg».proof.Proof.Spec
import proofs.«145820_j27006754357707_2_alg».proof.Proof.LibMeanAggregate
import proofs.«145820_j27006754357707_2_alg».proof.Proof.LibSoftmaxReal
import Mathlib.Tactic.Ring
import Mathlib.Tactic.FieldSimp
import Mathlib.Tactic.NormNum
import Mathlib.Tactic.Positivity

noncomputable section

namespace Cert.TripletMath

open Cert.Spec Cert.Lib.MeanAggregate Idealize.ShloMosaic

/-! ### The constants -/

/-- The word 0x3F800000 denotes 1. -/
theorem kOne_eq : kOne = ((1 : ℝ) : EReal) := by
  simp [kOne, Ideal.ofBits, Ideal.ieee, -EReal.coe_mul]; norm_num

/-- The word 0x3F000000 denotes 1/2. -/
theorem kHalf_eq : kHalf = (((1 : ℝ) / 2 : ℝ) : EReal) := by
  simp [kHalf, Ideal.ofBits, Ideal.ieee, -EReal.coe_mul]; norm_num

/-- The word 0x3E800000 denotes 1/4. -/
theorem kQuarter_eq : kQuarter = (((1 : ℝ) / 4 : ℝ) : EReal) := by
  simp [kQuarter, Ideal.ofBits, Ideal.ieee, -EReal.coe_mul]; norm_num

/-- The word 0x4C400000 denotes 3 · 2^24 = 50331648. -/
theorem nPix_eq : nPix = ((50331648 : ℝ) : EReal) := by
  simp [nPix, Ideal.ofBits, Ideal.ieee, -EReal.coe_mul]; norm_num

/-! ### A negation across the division by the number of pixels -/

/-- Dividing by the nonzero real number of pixels is multiplying by its reciprocal, and on the extended
    reals (-s) · k = -(s · k) for every s, the infinities included. -/
theorem neg_div_nPix (s : EReal) : Ideal.div (-s) nPix = -(Ideal.div s nPix) := by
  have h : (50331648 : ℝ) ≠ 0 := by norm_num
  rw [nPix_eq, Ideal.div_coe h, Ideal.div_coe h, EReal.neg_mul]

/-! ### The image of ℝ is closed under the remaining operations -/

/-- The negation of a real is real. -/
theorem isReal_neg {x : EReal} (hx : IsReal x) : IsReal (-x) := by
  obtain ⟨a, rfl⟩ := hx
  exact ⟨-a, (EReal.coe_neg a).symm⟩

/-- The difference of two reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The exponential of a real is a positive real. -/
theorem exp_pos_of_isReal {x : EReal} (hx : IsReal x) : ∃ r : ℝ, 0 < r ∧ Ideal.exp x = (r : EReal) := by
  obtain ⟨a, rfl⟩ := hx
  exact ⟨Real.exp a, Real.exp_pos a, Ideal.exp_coe a⟩

/-- The exponential of a real is real. -/
theorem isReal_exp {x : EReal} (hx : IsReal x) : IsReal (Ideal.exp x) := by
  obtain ⟨r, _, hr⟩ := exp_pos_of_isReal hx
  exact ⟨r, hr⟩

/-- The logarithm of a positive real is real. -/
theorem isReal_log_of_pos {r : ℝ} (hr : 0 < r) : IsReal (Ideal.log (r : EReal)) := by
  rw [Ideal.log_coe, if_neg (not_le.2 hr)]
  exact ⟨_, rfl⟩

/-- The constant 1 is real. -/
theorem isReal_kOne : IsReal kOne := ⟨_, kOne_eq⟩

/-- The constant 1/2 is real. -/
theorem isReal_kHalf : IsReal kHalf := ⟨_, kHalf_eq⟩

/-- The constant 1/4 is real. -/
theorem isReal_kQuarter : IsReal kQuarter := ⟨_, kQuarter_eq⟩

/-! ### The two ways to write the first softmax weight -/

/-- For real a and b, e^{a - M} / (e^{a - M} + e^{b - M}) with M = max a b is 1 / (1 + e^{-(a - b)}): both
    are the image of one real number, because e^{b - M} = e^{a - M} · e^{-(a - b)} and e^{a - M} ≠ 0. -/
theorem softmaxFirst_eq_sigmoidDiff {a b : EReal} (ha : IsReal a) (hb : IsReal b) :
    softmaxFirst a b = sigmoidDiff a b := by
  obtain ⟨a, rfl⟩ := ha
  obtain ⟨b, rfl⟩ := hb
  have hA : 0 < Real.exp (a - max a b) := Real.exp_pos _
  have hB : 0 < Real.exp (b - max a b) := Real.exp_pos _
  have hE : 0 < Real.exp (-(a - b)) := Real.exp_pos _
  have h1 : Real.exp (a - max a b) + Real.exp (b - max a b) ≠ 0 := (add_pos hA hB).ne'
  have h2 : (1 : ℝ) + Real.exp (-(a - b)) ≠ 0 := (add_pos one_pos hE).ne'
  have hsplit : Real.exp (b - max a b) = Real.exp (a - max a b) * Real.exp (-(a - b)) := by
    rw [← Real.exp_add]
    congr 1
    ring
  unfold softmaxFirst sigmoidDiff
  rw [kOne_eq, max_coe, ← EReal.coe_sub, ← EReal.coe_sub, ← EReal.coe_sub, ← EReal.coe_neg,
    Ideal.exp_coe, Ideal.exp_coe, Ideal.exp_coe, ← EReal.coe_add, ← EReal.coe_add,
    Ideal.div_coe h1, Ideal.div_coe h2, ← EReal.coe_mul, ← EReal.coe_mul]
  refine congrArg _ ?_
  rw [hsplit]
  field_simp

/-! ### A score is real when its inputs are -/

/-- The mixture's variance ¼(e^ℓa + e^ℓb) at real ℓa, ℓb is a positive real. -/
theorem varM_pos {la lb : EReal} (hla : IsReal la) (hlb : IsReal lb) :
    ∃ v : ℝ, 0 < v ∧ varM la lb = (v : EReal) := by
  obtain ⟨ea, hea, hA⟩ := exp_pos_of_isReal hla
  obtain ⟨eb, heb, hB⟩ := exp_pos_of_isReal hlb
  refine ⟨1 / 4 * (ea + eb), by positivity, ?_⟩
  unfold varM
  rw [kQuarter_eq, hA, hB, ← EReal.coe_add, ← EReal.coe_mul]

/-- The mixture's mean ½(μa + μb) at real μa, μb is real. -/
theorem isReal_meanM {ma mb : EReal} (hma : IsReal ma) (hmb : IsReal mb) : IsReal (meanM ma mb) :=
  isReal_kHalf.mul (hma.add hmb)

/-- One coordinate's term of the KL against the mixture is real at real arguments: the variance is a
    positive real, so its logarithm is real and both quotients by it are real. -/
theorem isReal_klDiag {mu lv ma la mb lb : EReal} (hmu : IsReal mu) (hlv : IsReal lv)
    (hma : IsReal ma) (hla : IsReal la) (hmb : IsReal mb) (hlb : IsReal lb) :
    IsReal (klDiag mu lv ma la mb lb) := by
  obtain ⟨v, hv, hV⟩ := varM_pos hla hlb
  have hvR : IsReal (varM la lb) := ⟨v, hV⟩
  have hv0 : varM la lb ≠ 0 := by
    rw [hV]
    exact (EReal.coe_pos.mpr hv).ne'
  have hlog : IsReal (Ideal.log (varM la lb)) := by
    rw [hV]
    exact isReal_log_of_pos hv
  have hd : IsReal (meanM ma mb - mu) := isReal_sub (isReal_meanM hma hmb) hmu
  unfold klDiag
  exact ((isReal_sub (isReal_sub hlog hlv) isReal_kOne).add ((isReal_exp hlv).div hvR hv0)).add ((hd.mul hd).div hvR hv0)

/-- Minus the Jensen–Shannon divergence of two rows of reals is real. -/
theorem isReal_negJs {ma la mb lb : Fin 128 → EReal} (hma : ∀ l, IsReal (ma l)) (hla : ∀ l, IsReal (la l))
    (hmb : ∀ l, IsReal (mb l)) (hlb : ∀ l, IsReal (lb l)) : IsReal (negJs ma la mb lb) := by
  unfold negJs
  exact isReal_neg (isReal_kHalf.mul
    ((isReal_kHalf.mul (IsReal.sum fun l => isReal_klDiag (hma l) (hla l) (hma l) (hla l) (hmb l) (hlb l))).add
      (isReal_kHalf.mul (IsReal.sum fun l => isReal_klDiag (hmb l) (hlb l) (hma l) (hla l) (hmb l) (hlb l)))))

end Cert.TripletMath

end
-- ==== Proof.FiniteInputs.lean ====
/-
  From the precondition to "every entry is a real number".

  The precondition is a printed boolean: the conjunction, over the ten float arrays, of
  "every entry x has |x| < +∞".  Over the extended reals |x| is max x (-x) and the bound is ⊤, so
  each conjunct says that no entry is +∞ or -∞, that is, every entry is the image of a real.
-/
import proofs.«145820_j27006754357707_2_alg».proof.Defs
import proofs.«145820_j27006754357707_2_alg».proof.Proof.LibMeanAggregate
import Idealize.ShloMosaic.Lib.ReduceAll
import Idealize.ShloMosaic.Lib.ValueIdx

noncomputable section

namespace Cert.FiniteInputs

open Idealize.ShloMosaic Idealize.SL.Sem Cert.Lib.MeanAggregate

/-- The scalar shape has exactly one index. -/
instance : Subsingleton (Cert.Pre_finite_inputs.S_).Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value max x (-x) is strictly below +∞ is a real number:
    at -∞ and at +∞ the maximum is +∞, which is not below itself. -/
theorem isReal_of_abs_lt (x : EReal)
    (h : Ideal.cmp .olt (max x (-x)) (Ideal.ofBits .f32 0x7F800000#32) = 1#1) : IsReal x := by
  rw [ofBits_inf] at h
  induction x using EReal.rec with
  | bot => exfalso; simp [Ideal.cmp] at h
  | coe r => exact ⟨r, rfl⟩
  | top => exfalso; simp [Ideal.cmp] at h

/-- "All entries satisfy |x| < +∞", printed as the reduction by `and` of the elementwise comparison
    of |x| with the broadcast bound, is one only if every entry of x is real.  Any shape. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i, IsReal (x i) := by
  intro i
  have hi := Host.reduce_andi_all _ _ hr hu ValueIdx.ix0 e i
  exact isReal_of_abs_lt (x i) hi

theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i)) := by
  have h0 := congrFun (h c) ValueIdx.ix0
  dsimp only [Cert.Pre_finite_inputs.fn, Cert.Pre_finite_inputs.fn_part1, Cert.Pre_finite_inputs.fn_part2] at h0
  -- the chain is nested to the left: each split yields the earlier conjuncts and the last array's bit
  obtain ⟨h1, e9⟩ := IntOp.andi_eq_one.1 h0
  obtain ⟨h2, e8⟩ := IntOp.andi_eq_one.1 h1
  obtain ⟨h3, e7⟩ := IntOp.andi_eq_one.1 h2
  obtain ⟨h4, e6⟩ := IntOp.andi_eq_one.1 h3
  obtain ⟨h5, e5⟩ := IntOp.andi_eq_one.1 h4
  obtain ⟨_, e4⟩ := IntOp.andi_eq_one.1 h5
  exact ⟨all_real _ _ _ _ e4, all_real _ _ _ _ e5, all_real _ _ _ _ e6,
    all_real _ _ _ _ e7, all_real _ _ _ _ e8, all_real _ _ _ _ e9⟩

end Cert.FiniteInputs

end
-- ==== Proof.lean ====
/-
  A variational-autoencoder loss with a triplet term: the kernel against its reference.

  Both programs return four scalars from ten arrays: the reconstruction loss −(1/N) Σ [x log y + (1 − x) log(1 − y)]
  over two image arrays, the KL loss −½ · mean(1 + ℓ − μ² − e^ℓ) over a latent mean and log-variance, the triplet loss
  −mean over the rows of the first of two softmax weights of the scores (−JS(anchor, positive), −JS(anchor, negative)),
  and their sum. Every float is read as an extended real and every operation as the exact one.

  The reference sums each loss in one reduction and takes the softmax with the row maximum subtracted. The kernel
  sums the image term in 48 blocks, each block by lanes then by rows, 24 blocks into each of two accumulators, and
  adds the two; it sums the KL term by lanes then rows; and it writes the softmax weight as the sigmoid of the score
  difference. Addition on the extended reals is commutative and associative, so every regrouping of a sum is an
  equality with no condition; (−s)/n = −(s/n) for the nonzero real n; and the sigmoid is the softmax weight exactly
  when the two scores are real numbers — which they are when the six latent arrays of the triplet are finite, the one
  place the precondition is used.

  The three frames are the generated ones (the reference's is its generated run with the results dropped); the
  idealization rewrote nothing.
-/
import proofs.«145820_j27006754357707_2_alg».proof.Defs
import proofs.«145820_j27006754357707_2_alg».proof.Proof.Gen.Kernel
import proofs.«145820_j27006754357707_2_alg».proof.Proof.Gen.Kernel.Frame
import proofs.«145820_j27006754357707_2_alg».proof.Proof.Gen.KernelIdeal
import proofs.«145820_j27006754357707_2_alg».proof.Proof.Gen.KernelIdeal.Frame
import proofs.«145820_j27006754357707_2_alg».proof.Proof.Gen.ReferenceIdeal
import proofs.«145820_j27006754357707_2_alg».proof.Proof.Gen.Pre_finite_inputs
import proofs.«145820_j27006754357707_2_alg».proof.Proof.Gen.ReferenceIdeal.Read
import proofs.«145820_j27006754357707_2_alg».proof.Proof.KernelRun
import proofs.«145820_j27006754357707_2_alg».proof.Proof.KernelValue
import proofs.«145820_j27006754357707_2_alg».proof.Proof.RefLosses
import proofs.«145820_j27006754357707_2_alg».proof.Proof.TripletMath
import proofs.«145820_j27006754357707_2_alg».proof.Proof.FiniteInputs
import Idealize.ShloMosaic.Adequacy
import Idealize.ShloMosaic.Init

set_option maxRecDepth 16384

noncomputable section

open scoped BigOperators

namespace Cert.Proof

open Idealize.ShloMosaic Idealize.ShloMosaic.TcCoe Idealize.SL.Sem Idealize.ShloMosaic.ValueIdx
open Cert.Spec Cert.Lib.MeanAggregate

theorem frame_k : Cert.frame_Kernel := fun m ρ _ => Cert.Kernel.Gen.frame m ρ

theorem frame_ki : Cert.frame_KernelIdeal := fun m ρ _ => Cert.KernelIdeal.Gen.frame m ρ

/-- The reference's frame is its run with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- A row of a real array is real. -/
theorem isReal_row {x : (⟨2, ![1024, 128]⟩ : Shape).Idx → EReal} (h : ∀ i, IsReal (x i)) (r : Fin 1024) (l : Fin 128) :
    IsReal (row x r l) := h _

/-- The score of two pairs of real arrays is real at every row. -/
theorem isReal_dAP {am al pm pl : (⟨2, ![1024, 128]⟩ : Shape).Idx → EReal} (h1 : ∀ i, IsReal (am i)) (h2 : ∀ i, IsReal (al i))
    (h3 : ∀ i, IsReal (pm i)) (h4 : ∀ i, IsReal (pl i)) (r : Fin 1024) : IsReal (dAP am al pm pl r) :=
  Cert.TripletMath.isReal_negJs (isReal_row h1 r) (isReal_row h2 r) (isReal_row h3 r) (isReal_row h4 r)

/-- From memories that agree on the ten arguments both idealized programs end with the same four losses. -/
theorem algebraic : Cert.algebraic_KernelIdeal_ReferenceIdeal := by
  intro m ρ m' ρ' hpre hagree
  refine ⟨fun c => Cert.KernelIdeal.Gen.W5 m ρ c (Proc.devRef .tc Cert.KernelIdeal.main_v20),
    fun c => Cert.KernelIdeal.Gen.W5 m ρ c (Proc.devRef .tc Cert.KernelIdeal.main_v16),
    fun c => Cert.KernelIdeal.Gen.W5 m ρ c (Proc.devRef .tc Cert.KernelIdeal.main_v9),
    fun c => Cert.KernelIdeal.Gen.W5 m ρ c (Proc.devRef .tc Cert.KernelIdeal.main_v13),
    Cert.KernelIdeal.RunValues.run_values (F := Ideal) m ρ, ?_⟩
  refine (θ_run Cert.ReferenceIdeal.defs _ _).mono (fun _ h c => ?_) (Cert.ReferenceIdeal.Value.run (F := Ideal) m' ρ')
  obtain ⟨h116, h92, h103, h112, hargs⟩ := h c
  obtain ⟨a0, a1, a2, a3, a4, a5, a6, a7, a8, a9⟩ := hagree c
  obtain ⟨r4, r5, r6, r7, r8, r9⟩ := Cert.FiniteInputs.real_of_pre m hpre c
  -- the reconstruction loss: the same sum, the sign moved across the division
  have e_recon : Cert.ReferenceIdeal.Read.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      = Cert.KernelIdeal.Gen.W5 m ρ c (Proc.devRef .tc Cert.KernelIdeal.main_v9) := by
    rw [Cert.RefLosses.recon_eq]
    funext i
    rw [Cert.KernelIdeal.KernelValue.recon_value m ρ c i, Cert.TripletMath.neg_div_nPix]
  -- the KL loss: the same double sum
  have e_kl : Cert.ReferenceIdeal.Read.val_main_v112 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      = Cert.KernelIdeal.Gen.W5 m ρ c (Proc.devRef .tc Cert.KernelIdeal.main_v13) := by
    rw [Cert.RefLosses.kl_eq]
    funext i
    rw [Cert.KernelIdeal.KernelValue.kl_value m ρ c i]
  -- the triplet loss: softmax weight = sigmoid at real scores
  have e_trip : Cert.ReferenceIdeal.Read.val_main_v92 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = Cert.KernelIdeal.Gen.W5 m ρ c (Proc.devRef .tc Cert.KernelIdeal.main_v16) := by
    rw [Cert.RefLosses.triplet_eq]
    funext i
    rw [Cert.KernelIdeal.KernelValue.trip_value m ρ c i]
    refine congrArg (fun s : EReal => -(Ideal.div s nRow)) (Finset.sum_congr rfl fun r _ => ?_)
    exact Cert.TripletMath.softmaxFirst_eq_sigmoidDiff (isReal_dAP r4 r5 r6 r7 r) (isReal_dAP r4 r5 r8 r9 r)
  refine ⟨h116.trans ?_, h92.trans ?_, h103.trans ?_, h112.trans ?_, hargs⟩
  · rw [Cert.ReferenceIdeal.Read.val_main_v116_eq, a0, a1, a2, a3, a4, a5, a6, a7, a8, a9]
    funext i
    rw [Cert.RefLosses.final_eq, e_recon, e_kl, e_trip]
    exact (congrFun (Cert.KernelIdeal.KernelValue.total_value m ρ c) i).symm
  · rw [Cert.ReferenceIdeal.Read.val_main_v92_eq, a4, a5, a6, a7, a8, a9]
    exact e_trip
  · refine (Cert.ReferenceIdeal.Read.val_main_v103_eq _ _).trans ?_
    rw [a0, a1]
    exact e_recon
  · refine (Cert.ReferenceIdeal.Read.val_main_v112_eq _ _).trans ?_
    rw [a2, a3]
    exact e_kl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
